-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part6 {F : FTy → Type} [FloatOps F] (main_v95 : IVec S_ 1) (main_v100 : IVec S_ 1) : IVec S_ 1 :=
  let main_v101 : IVec S_ 1 := andi main_v95 main_v100
  main_v101

def fn_part5 {F : FTy → Type} [FloatOps F] (main_arg7 : FVec F S128 .f32) (main_arg12 : FVec F S128 .f32) (main_arg17 : FVec F S128 .f32) (main_v83 : IVec S_ 1) (main_v84 : FVec F S128 .f32) : IVec S_ 1 :=
  let main_v85 : FVec F S128 .f32 := addf main_arg7 main_v84
  let main_cst_33 : FVec F S_ .f32 := constant S_ .f32 0x00000000#32
  let main_v86 : FVec F S128 .f32 := broadcastInDim S128 ![] bcast_S_S128 main_cst_33
  let main_v87 : IVec S128 1 := cmpf .ogt main_v85 main_v86
  let main_c_34 : IVec S_ 1 := constantI S_ 1 1#1
  let main_v88 : IVec S_ 1 := (fun x v => Host.reduce IntOp.andi x v reducesTo_S128_S_d0 h_S_) main_v87 main_c_34
  let main_v89 : IVec S_ 1 := andi main_v83 main_v88
  let main_cst_35 : FVec F S_ .f32 := constant S_ .f32 0x3727C5AC#32
  let main_v90 : FVec F S128 .f32 := broadcastInDim S128 ![] bcast_S_S128 main_cst_35
  let main_v91 : FVec F S128 .f32 := addf main_arg12 main_v90
  let main_cst_36 : FVec F S_ .f32 := constant S_ .f32 0x00000000#32
  let main_v92 : FVec F S128 .f32 := broadcastInDim S128 ![] bcast_S_S128 main_cst_36
  let main_v93 : IVec S128 1 := cmpf .ogt main_v91 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v89 main_v94
  let main_cst_38 : FVec F S_ .f32 := constant S_ .f32 0x3727C5AC#32
  let main_v96 : FVec F S128 .f32 := broadcastInDim S128 ![] bcast_S_S128 main_cst_38
  let main_v97 : FVec F S128 .f32 := addf main_arg17 main_v96
  let main_cst_39 : FVec F S_ .f32 := constant S_ .f32 0x00000000#32
  let main_v98 : FVec F S128 .f32 := broadcastInDim S128 ![] bcast_S_S128 main_cst_39
  let main_v99 : IVec S128 1 := cmpf .ogt main_v97 main_v98
  let main_c_40 : IVec S_ 1 := constantI S_ 1 1#1
  let main_v100 : IVec S_ 1 := (fun x v => Host.reduce IntOp.andi x v reducesTo_S128_S_d0 h_S_) main_v99 main_c_40
  fn_part6 (F := F) main_v95 main_v100

def fn_part4 {F : FTy → Type} [FloatOps F] (main_arg7 : FVec F S128 .f32) (main_arg12 : FVec F S128 .f32) (main_arg16 : FVec F S128 .f32) (main_arg17 : FVec F S128 .f32) (main_arg18 : FVec F S128x1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_cst_32 : FVec F S_ .f32 := constant S_ .f32 0x3727C5AC#32
  let main_v84 : FVec F S128 .f32 := broadcastInDim S128 ![] bcast_S_S128 main_cst_32
  fn_part5 (F := F) main_arg7 main_arg12 main_arg17 main_v83 main_v84

def fn_part3 {F : FTy → Type} [FloatOps F] (main_arg7 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg7 main_arg12 main_arg16 main_arg17 main_arg18 main_v63 main_v67

def fn_part2 {F : FTy → Type} [FloatOps F] (main_arg7 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg7 main_arg12 main_arg13 main_arg14 main_arg15 main_arg16 main_arg17 main_arg18 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg9 main_arg10 main_arg11 main_arg12 main_arg13 main_arg14 main_arg15 main_arg16 main_arg17 main_arg18 main_v33

def fn {F : FTy → Type} [FloatOps F] (main_arg0 : FVec F S100000x4 .f32) (main_arg1 : IVec S2x1600000 32) (main_arg2 : IVec S100000 32) (main_arg3 : FVec F S4x128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩

abbrev nBuf : Space → Nat
  | .hbm => 105
  | .vmem => 33
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S100000, .i32⟩
  | .hbm, ⟨3, _⟩ => ⟨S4x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x4, .f32⟩
  | .hbm, ⟨32, _⟩ => ⟨S_, .f32⟩
  | .hbm, ⟨33, _⟩ => ⟨S100000x4, .f32⟩
  | .hbm, ⟨34, _⟩ => ⟨S1600000x1, .i32⟩
  | .hbm, ⟨35, _⟩ => ⟨S100000x4, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S100000x128, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S100000x128, .bf16⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .bf16⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S100000x128, .f32⟩
  | .hbm, ⟨81, _⟩ => ⟨S_, .f32⟩
  | .hbm, ⟨82, _⟩ => ⟨S256x128, .f32⟩
  | .hbm, ⟨83, _⟩ => ⟨S100000x1, .i32⟩
  | .hbm, ⟨84, _⟩ => ⟨S256x128, .f32⟩
  | .hbm, ⟨85, _⟩ => ⟨S_, .f32⟩
  | .hbm, ⟨86, _⟩ => ⟨S100000x1, .f32⟩
  | .hbm, ⟨87, _⟩ => ⟨S_, .f32⟩
  | .hbm, ⟨88, _⟩ => ⟨S256x1, .f32⟩
  | .hbm, ⟨89, _⟩ => ⟨S100000x1, .i32⟩
  | .hbm, ⟨90, _⟩ => ⟨S256x1, .f32⟩
  | .hbm, ⟨91, _⟩ => ⟨S_, .f32⟩
  | .hbm, ⟨92, _⟩ => ⟨S256x1, .f32⟩
  | .hbm, ⟨93, _⟩ => ⟨S256x1, .f32⟩
  | .hbm, ⟨94, _⟩ => ⟨S256x128, .f32⟩
  | .hbm, ⟨95, _⟩ => ⟨S256x128, .f32⟩
  | .hbm, ⟨96, _⟩ => ⟨S256x1, .f32⟩
  | .hbm, ⟨97, _⟩ => ⟨S256x1, .f32⟩
  | .hbm, ⟨98, _⟩ => ⟨S256x1, .f32⟩
  | .hbm, ⟨99, _⟩ => ⟨S_, .f32⟩
  | .hbm, ⟨100, _⟩ => ⟨S256x1, .f32⟩
  | .hbm, ⟨101, _⟩ => ⟨S256x1, .f32⟩
  | .hbm, ⟨102, _⟩ => ⟨S_, .f32⟩
  | .hbm, ⟨103, _⟩ => ⟨S256x1, .f32⟩
  | .hbm, ⟨104, _⟩ => ⟨S256x1, .f32⟩
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S100000x128 : Shape := ⟨2, ![100000, 128]⟩
abbrev S1x128 : Shape := ⟨2, ![1, 128]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩

abbrev nBuf : Space → Nat
  | .hbm => 143
  | .vmem => 0
  | .smem => 0
  | _ => 0

abbrev hbmTy0_0 (i : Nat) : BufTy := match i % 128 with
  | 0 => ⟨S100000x4, .f32⟩
  | 1 => ⟨S2x1600000, .i32⟩
  | 2 => ⟨S100000, .i32⟩
  | 3 => ⟨S4x128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x1, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x4, .f32⟩
  | 32 => ⟨S_, .f32⟩
  | 33 => ⟨S100000x4, .f32⟩
  | 34 => ⟨S1600000x1, .i32⟩
  | 35 => ⟨S100000x4, .f32⟩
  | 36 => ⟨S100000x4, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S256x128, .f32⟩
  | 121 => ⟨S100000x1, .i32⟩
  | 122 => ⟨S256x128, .f32⟩
  | 123 => ⟨S_, .f32⟩
  | 124 => ⟨S100000x1, .f32⟩
  | 125 => ⟨S_, .f32⟩
  | 126 => ⟨S256x1, .f32⟩
  | 127 => ⟨S100000x1, .i32⟩
  | _ => ⟨S100000x4, .f32⟩

abbrev hbmTy0_1 (i : Nat) : BufTy := match i % 128 with
  | 0 => ⟨S256x1, .f32⟩
  | 1 => ⟨S_, .f32⟩
  | 2 => ⟨S256x1, .f32⟩
  | 3 => ⟨S256x1, .f32⟩
  | 4 => ⟨S256x128, .f32⟩
  | 5 => ⟨S256x128, .f32⟩
  | 6 => ⟨S256x1, .f32⟩
  | 7 => ⟨S256x1, .f32⟩
  | 8 => ⟨S256x1, .f32⟩
  | 9 => ⟨S_, .f32⟩
  | 10 => ⟨S256x1, .f32⟩
  | 11 => ⟨S256x1, .f32⟩
  | 12 => ⟨S_, .f32⟩
  | 13 => ⟨S256x1, .f32⟩
  | 14 => ⟨S256x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_c_6 : Ref sig .tc := ⟨.hbm, 87, rfl⟩
abbrev main_v56 : Ref sig .tc := ⟨.hbm, 88, rfl⟩
abbrev main_v57 : Ref sig .tc := ⟨.hbm, 89, rfl⟩
abbrev main_c_7 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_cst_10 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_11 : Ref sig .tc := ⟨.hbm, 123, rfl⟩
abbrev main_v85 : Ref sig .tc := ⟨.hbm, 124, rfl⟩
abbrev main_cst_12 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_13 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_14 : Ref sig .tc := ⟨.hbm, 137, rfl⟩
abbrev main_v96 : Ref sig .tc := ⟨.hbm, 138, rfl⟩
abbrev main_v97 : Ref sig .tc := ⟨.hbm, 139, rfl⟩
abbrev main_cst_15 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x1_S256x1_1_0_0_1_n_n_wf : DotDims.WF S256x128 S128x1 S256x1 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel program's run with its result kept.

  The program is three kernel regions among four stretches of host operations. Every weakly fair execution from a
  memory with zero counters terminates without a fault, and the final memory holds, at every buffer that outlives a
  region, the contents obtained by folding the stretches and the regions' write-backs through the launch memory. Here
  that final valuation is kept whole, and then read at the result buffer and at the nineteen argument buffers.
-/
import proofs.«147843_j40407052320950_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and the final memory holds the folded contents at every
    buffer that outlives a region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result buffer and at the arguments: the result holds the folded contents, the arguments
    are as launched. -/
theorem run_result : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v70 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c)⟩) (run_all m ρ)

end Cert.KernelIdeal.Run

end
-- ==== Proof.LibRsqrtQuotient.lean ====
/-
  A factor times a reciprocal square root is the factor divided by the square root, on the extended reals.

  For `0 < s` (the value `⊤` included) `g · rsqrt s = g / sqrt s` for every extended real `g`: at a positive real `s` both
  are `g · (√s)⁻¹`, and at `⊤` the reciprocal square root is `0` and the quotient by `⊤` is `g · 0`. The hypothesis cannot
  be dropped: for `s < 0` both roots take the value `⊥`, and `g / ⊥ = 0` while `g · ⊥` is infinite for `g ≠ 0`; at `s = 0`
  with `g = 0` the product `0 · ⊤` is `0` and the quotient `0 / 0` is `⊥`.
-/
import Idealize.ShloMosaic.PureOps.Ideal

namespace Cert.RsqrtQuotient

open Idealize.ShloMosaic

/-- For `0 < s` on the extended reals (`s = ⊤` included), a factor times the reciprocal square root of `s` is that
    factor divided by the square root of `s`. -/
theorem mul_rsqrt_eq_div_sqrt (g s : EReal) (hs : 0 < s) : g * Ideal.rsqrt s = Ideal.div g (Ideal.sqrt s) := by
  induction s using EReal.rec with
  | bot => exact absurd hs (by simp)
  | coe r =>
    have hr : 0 < r := by exact_mod_cast hs
    rw [Ideal.rsqrt_coe, Ideal.sqrt_coe, if_neg (not_lt.mpr hr.le), if_neg hr.ne', if_neg (not_lt.mpr hr.le),
      Ideal.div_coe (Real.sqrt_pos.mpr hr).ne', one_div]
  | top =>
    rw [Ideal.rsqrt_top, Ideal.sqrt_top, Ideal.div, if_neg (by simp), EReal.inv_top]

end Cert.RsqrtQuotient
-- ==== Proof.DenseSpec.lean ====
/-
  One graph-convolution layer's dense part, index by index, on the extended reals.

  A layer takes node features `h` and aggregated neighbour features `a` (both `[M, K]`), a weight matrix `W`
  (`[K, 128]`) and, per output channel `q`, a scale `s q`, a shift `b q` and a mean `μ q`. Row `p`, channel `q` of the
  result is

      max ( (Σ_d (h(p,d) + a(p,d)) · W(d,q)  −  μ q) · s q  +  b q ,  0 ).

  The two programs differ only in how they spell the scale of a batch normalisation with weight `g`, variance `v` and
  a positive `ε` added under the root: one multiplies `g` by the reciprocal square root of `v + ε`, the other divides
  `g` by the square root of `v + ε`. On the extended reals these agree exactly when `v + ε` is positive (for a
  negative argument both roots take the junk value `⊥` and the quotient `g / ⊥` is `0` while the product `g · ⊥` is
  not; at `0` with `g = 0` the product `0 · ⊤` is `0` and the quotient `0 / 0` is `⊥`).
-/
import Idealize.ShloMosaic.PureOps.Ideal
import Idealize.ShloMosaic.Lib.ValueIdx
import proofs.«147843_j40407052320950_2_alg».proof.Proof.LibRsqrtQuotient

noncomputable section

namespace Cert.DenseSpec

open Idealize.ShloMosaic Idealize.ShloMosaic.ValueIdx
open scoped BigOperators

/-- The dense part of one layer at the index `j` of an `[M, 128]` result: `h`, `a` the `[M, K]` node and neighbour
    features, `W` the `[K, 128]` weights, `s`, `b`, `μ` the per-channel scale, shift and mean. -/
def dense {M K : ℕ} (h a : (⟨2, ![M, K]⟩ : Shape).Idx → EReal) (W : (⟨2, ![K, 128]⟩ : Shape).Idx → EReal)
    (s b μ : Fin 128 → EReal) (j : (⟨2, ![M, 128]⟩ : Shape).Idx) : EReal :=
  max (((∑ d : Fin K, (h (ix2 (j 0) d) + a (ix2 (j 0) d)) * W (ix2 d (j 1))) - μ (j 1)) * s (j 1) + b (j 1)) 0

/-- A `[128]` vector as a function of the channel. -/
def vecFn (x : (⟨1, ![128]⟩ : Shape).Idx → EReal) (q : Fin 128) : EReal := x (ix1 q)

/-- The scale spelt with a reciprocal square root: weight `g` times `rsqrt (v + ε)`, `ε` the float nearest `10⁻⁵`
    (the word `0x3727C5AC`; its value is never needed, only that both programs carry the same word). -/
def kscale (g v : Fin 128 → EReal) (q : Fin 128) : EReal :=
  g q * Ideal.rsqrt (v q + Ideal.ofBits .f32 0x3727C5AC#32)

/-- The scale spelt with a quotient: weight `g` divided by `sqrt (v + ε)`. -/
def rscale (g v : Fin 128 → EReal) (q : Fin 128) : EReal :=
  Ideal.div (g q) (Ideal.sqrt (v q + Ideal.ofBits .f32 0x3727C5AC#32))

/-- Where every `v q + ε` is positive the two spellings of the scale are one function. -/
theorem kscale_eq_rscale (g v : Fin 128 → EReal) (hv : ∀ q, 0 < v q + Ideal.ofBits .f32 0x3727C5AC#32) :
    kscale g v = rscale g v :=
  funext fun q => Cert.RsqrtQuotient.mul_rsqrt_eq_div_sqrt _ _ (hv q)

theorem dense_ix2 {M K : ℕ} (h a : (⟨2, ![M, K]⟩ : Shape).Idx → EReal) (W : (⟨2, ![K, 128]⟩ : Shape).Idx → EReal)
    (s b μ : Fin 128 → EReal) (p : Fin M) (q : Fin 128) :
    dense h a W s b μ (ix2 p q)
      = max (((∑ d : Fin K, (h (ix2 p d) + a (ix2 p d)) * W (ix2 d q)) - μ q) * s q + b q) 0 := rfl

/-- Two dense layers agree at a pair of indices as soon as their data agree along the row and the channel read. -/
theorem dense_congr {M M' K : ℕ} (h a : (⟨2, ![M, K]⟩ : Shape).Idx → EReal) (h' a' : (⟨2, ![M', K]⟩ : Shape).Idx → EReal)
    (W W' : (⟨2, ![K, 128]⟩ : Shape).Idx → EReal) (s s' b b' μ μ' : Fin 128 → EReal)
    (j : (⟨2, ![M, 128]⟩ : Shape).Idx) (j' : (⟨2, ![M', 128]⟩ : Shape).Idx)
    (hh : ∀ d, h (ix2 (j 0) d) = h' (ix2 (j' 0) d)) (ha : ∀ d, a (ix2 (j 0) d) = a' (ix2 (j' 0) d))
    (hW : ∀ d, W (ix2 d (j 1)) = W' (ix2 d (j' 1)))
    (hs : s (j 1) = s' (j' 1)) (hb : b (j 1) = b' (j' 1)) (hμ : μ (j 1) = μ' (j' 1)) :
    dense h a W s b μ j = dense h' a' W' s' b' μ' j' := by
  unfold dense
  rw [hs, hb, hμ]
  simp only [hh, ha, hW]

end Cert.DenseSpec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.KernelPayload.lean ====
/-
  What one grid point of each of the three layer kernels stores, read at an index.

  Each kernel body loads a `[5000, K]` block of node features and of aggregated neighbour features, the whole `[K, 128]`
  weight matrix and four `[1, 128]` rows (weight, shift, mean, variance of the batch normalisation), and stores one
  `[5000, 128]` block. On the extended reals the conversions to the narrow float format are the identity and the matrix
  unit's product into a zero accumulator is the plain inner product, so entry `(p, q)` of the stored block is the dense
  layer of `DenseSpec` at `(p, q)`, with the scale spelt by the reciprocal square root.
-/
import proofs.«147843_j40407052320950_2_alg».proof.Proof.Gen.KernelIdeal.Skeleton
import proofs.«147843_j40407052320950_2_alg».proof.Proof.DenseSpec
import proofs.«147843_j40407052320950_2_alg».proof.Proof.LibInnerProducts
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-- A `[1, 128]` row as a function of the channel. -/
def rowFn (x : Vec Ideal S1x128 .f32) : Fin 128 → EReal := fun q => x (ix2 (0 : Fin 1) q)

theorem rsqrt_row_apply (v : FVec Ideal S1x128 .f32) (i : S1x128.Idx) : rsqrt v i = Ideal.rsqrt (v i) := rfl

/-- Layer 1's block (`K = 4`) at `(p, q)`. -/
theorem pay0_apply (x0 x1 : Vec Ideal S5000x4 .f32) (x2 : Vec Ideal S4x128 .f32) (x3 x4 x5 x6 : Vec Ideal S1x128 .f32)
    (p : Fin 5000) (q : Fin 128) :
    k0_pay1 (F := Ideal) x0 x1 x2 x3 x4 x5 x6 (ix2 p q)
      = DenseSpec.dense x0 x1 x2 (DenseSpec.kscale (rowFn x3) (rowFn x6)) (rowFn x4) (rowFn x5) (ix2 p q) := by
  unfold k0_pay1
  rw [DenseSpec.dense_ix2]
  simp only [maximumf_apply, addf_apply, mulf_apply, subf_apply, broadcast_apply, shapeCast_self,
    broadcastTo_1b_ab_apply, rsqrt_row_apply,
    InnerProducts.matmul_zero_apply dot_S5000x4_S4x128_S5000x128_1_0_0_1_n_n rfl, truncf_apply]
  rw [show (Scalar.ofBits (F := Ideal) .f32 0x00000000#32 : EReal) = 0 from Ideal.ofBits_zero_f32]
  rfl

/-- Layer 2's block (`K = 128`) at `(p, q)`. -/
theorem pay1_apply (x0 x1 : Vec Ideal S5000x128 .f32) (x2 : Vec Ideal S128x128 .f32) (x3 x4 x5 x6 : Vec Ideal S1x128 .f32)
    (p : Fin 5000) (q : Fin 128) :
    k1_pay1 (F := Ideal) x0 x1 x2 x3 x4 x5 x6 (ix2 p q)
      = DenseSpec.dense x0 x1 x2 (DenseSpec.kscale (rowFn x3) (rowFn x6)) (rowFn x4) (rowFn x5) (ix2 p q) := by
  unfold k1_pay1
  rw [DenseSpec.dense_ix2]
  simp only [maximumf_apply, addf_apply, mulf_apply, subf_apply, broadcast_apply, shapeCast_self,
    broadcastTo_1b_ab_apply, rsqrt_row_apply,
    InnerProducts.matmul_zero_apply dot_S5000x128_S128x128_S5000x128_1_0_0_1_n_n rfl, truncf_apply]
  rw [show (Scalar.ofBits (F := Ideal) .f32 0x00000000#32 : EReal) = 0 from Ideal.ofBits_zero_f32]
  rfl

/-- Layer 3's block (`K = 128`) at `(p, q)`. -/
theorem pay2_apply (x0 x1 : Vec Ideal S5000x128 .f32) (x2 : Vec Ideal S128x128 .f32) (x3 x4 x5 x6 : Vec Ideal S1x128 .f32)
    (p : Fin 5000) (q : Fin 128) :
    k2_pay1 (F := Ideal) x0 x1 x2 x3 x4 x5 x6 (ix2 p q)
      = DenseSpec.dense x0 x1 x2 (DenseSpec.kscale (rowFn x3) (rowFn x6)) (rowFn x4) (rowFn x5) (ix2 p q) := by
  unfold k2_pay1
  rw [DenseSpec.dense_ix2]
  simp only [maximumf_apply, addf_apply, mulf_apply, subf_apply, broadcast_apply, shapeCast_self,
    broadcastTo_1b_ab_apply, rsqrt_row_apply,
    InnerProducts.matmul_zero_apply dot_S5000x128_S128x128_S5000x128_1_0_0_1_n_n rfl, truncf_apply]
  rw [show (Scalar.ofBits (F := Ideal) .f32 0x00000000#32 : EReal) = 0 from Ideal.ofBits_zero_f32]
  rfl

/-- The same at any index of the block. -/
theorem pay0_at (x0 x1 : Vec Ideal S5000x4 .f32) (x2 : Vec Ideal S4x128 .f32) (x3 x4 x5 x6 : Vec Ideal S1x128 .f32)
    (j : S5000x128.Idx) :
    k0_pay1 (F := Ideal) x0 x1 x2 x3 x4 x5 x6 j
      = DenseSpec.dense x0 x1 x2 (DenseSpec.kscale (rowFn x3) (rowFn x6)) (rowFn x4) (rowFn x5) j := by
  obtain ⟨p, q, rfl⟩ : ∃ (p : Fin 5000) (q : Fin 128), j = ix2 p q := ⟨j 0, j 1, eq_ix2 j⟩
  exact pay0_apply x0 x1 x2 x3 x4 x5 x6 p q

/-- The same at any index of the block. -/
theorem pay1_at (x0 x1 : Vec Ideal S5000x128 .f32) (x2 : Vec Ideal S128x128 .f32) (x3 x4 x5 x6 : Vec Ideal S1x128 .f32)
    (j : S5000x128.Idx) :
    k1_pay1 (F := Ideal) x0 x1 x2 x3 x4 x5 x6 j
      = DenseSpec.dense x0 x1 x2 (DenseSpec.kscale (rowFn x3) (rowFn x6)) (rowFn x4) (rowFn x5) j := by
  obtain ⟨p, q, rfl⟩ : ∃ (p : Fin 5000) (q : Fin 128), j = ix2 p q := ⟨j 0, j 1, eq_ix2 j⟩
  exact pay1_apply x0 x1 x2 x3 x4 x5 x6 p q

/-- The same at any index of the block. -/
theorem pay2_at (x0 x1 : Vec Ideal S5000x128 .f32) (x2 : Vec Ideal S128x128 .f32) (x3 x4 x5 x6 : Vec Ideal S1x128 .f32)
    (j : S5000x128.Idx) :
    k2_pay1 (F := Ideal) x0 x1 x2 x3 x4 x5 x6 j
      = DenseSpec.dense x0 x1 x2 (DenseSpec.kscale (rowFn x3) (rowFn x6)) (rowFn x4) (rowFn x5) j := by
  obtain ⟨p, q, rfl⟩ : ∃ (p : Fin 5000) (q : Fin 128), j = ix2 p q := ⟨j 0, j 1, eq_ix2 j⟩
  exact pay2_apply x0 x1 x2 x3 x4 x5 x6 p q

end Cert.KernelIdeal.Payload

end
-- ==== Proof.KernelBlocks0.lean ====
/-
  Layer 1's kernel as one function of whole arrays.

  The grid has twenty points; point `t` reads rows `5000 t … 5000 t + 4999` of the node features and of the aggregated
  neighbour features, the whole weight matrix and the four normalisation rows, and writes rows `5000 t … 5000 t + 4999`
  of the result. A row of the result depends only on the same row of the two feature arrays, so each written block is
  the restriction of one whole-array function, the dense layer of `DenseSpec` over all `100000` rows, and the twenty
  blocks cover the result array. Stated for any contents of the buffers at the region's entry.
-/
import proofs.«147843_j40407052320950_2_alg».proof.Proof.Gen.KernelIdeal.Frame
import proofs.«147843_j40407052320950_2_alg».proof.Proof.KernelPayload
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The layer over all rows: node features `h`, neighbour sums `a`, weights `W`, and the rows `g` (weight), `b` (shift),
    `μ` (mean), `v` (variance) of the normalisation. -/
def layer (h a : S100000x4.Idx → EReal) (W : S4x128.Idx → EReal) (g b μ v : S1x128.Idx → EReal) : S100000x128.Idx → EReal :=
  DenseSpec.dense h a W (DenseSpec.kscale (rowFn g) (rowFn v)) (rowFn b) (rowFn μ)

/-- Where each window's block sits at point `t`: the two feature windows move with the result window along the rows and
    sit at column block `0`; the weight and the four rows are always block `(0, 0)`; the result's row block is below `20`. -/
theorem block_positions : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 19 :=
  (by decide +kernel : ∀ t : Fin grid0.N, _)

/-- Every row block of the result is some point's. -/
theorem block_onto : ∀ q0 : Fin 20, ∃ t : Fin cfg0.N, win0_7.index t = ![q0.val, 0] :=
  (by decide +kernel : ∀ q0 : Fin 20, ∃ t : Fin grid0.N, win0_7.index t = ![q0.val, 0])

theorem rowFn_congr (b b' : S1x128.Idx → EReal) (q q' : Fin 128) (hb : b = b') (hq : q = q') :
    rowFn b q = rowFn b' q' := by subst hb; subst hq; rfl

theorem kscale_congr (g g' v v' : S1x128.Idx → EReal) (q q' : Fin 128) (hg : g = g') (hv : v = v') (hq : q = q') :
    DenseSpec.kscale (rowFn g) (rowFn v) q = DenseSpec.kscale (rowFn g') (rowFn v') q' := by
  subst hg; subst hv; subst hq; rfl

/-- The weight window is always the whole weight matrix. -/
theorem blk_weights (c : Dev nD) (t : Fin cfg0.N) : (iblk0 V c 2 t : S4x128.Idx → EReal) = V c main_arg3 := funext fun y => by
  obtain ⟨e00, e01, e10, e11, e20, e21, e30, e31, e40, e41, e50, e51, e60, e61, e71, e70⟩ := block_positions t
  show V c main_arg3 (((cfg0.win 2).blk t).view.emb y) = V c main_arg3 y
  refine congrArg (V c main_arg3) (funext fun a => Fin.ext ?_)
  match a with
  | ⟨0, _⟩ => show win0_2.index t (0 : Fin 2) * 4 + 1 * (y 0).val = (y 0).val; omega
  | ⟨1, _⟩ => show win0_2.index t (1 : Fin 2) * 128 + 1 * (y 1).val = (y 1).val; omega

/-- Window 3 is always the whole of its `[1, 128]` row. -/
theorem blk_row3 (c : Dev nD) (t : Fin cfg0.N) : (iblk0 V c 3 t : S1x128.Idx → EReal) = V c main_v14 := funext fun y => by
  obtain ⟨e00, e01, e10, e11, e20, e21, e30, e31, e40, e41, e50, e51, e60, e61, e71, e70⟩ := block_positions t
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 is always the whole of its `[1, 128]` row. -/
theorem blk_row4 (c : Dev nD) (t : Fin cfg0.N) : (iblk0 V c 4 t : S1x128.Idx → EReal) = V c main_v15 := funext fun y => by
  obtain ⟨e00, e01, e10, e11, e20, e21, e30, e31, e40, e41, e50, e51, e60, e61, e71, e70⟩ := block_positions t
  show V c main_v15 (((cfg0.win 4).blk t).view.emb y) = V c main_v15 y
  refine congrArg (V c main_v15) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 is always the whole of its `[1, 128]` row. -/
theorem blk_row5 (c : Dev nD) (t : Fin cfg0.N) : (iblk0 V c 5 t : S1x128.Idx → EReal) = V c main_v16 := funext fun y => by
  obtain ⟨e00, e01, e10, e11, e20, e21, e30, e31, e40, e41, e50, e51, e60, e61, e71, e70⟩ := block_positions t
  show V c main_v16 (((cfg0.win 5).blk t).view.emb y) = V c main_v16 y
  refine congrArg (V c main_v16) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is always the whole of its `[1, 128]` row. -/
theorem blk_row6 (c : Dev nD) (t : Fin cfg0.N) : (iblk0 V c 6 t : S1x128.Idx → EReal) = V c main_v17 := funext fun y => by
  obtain ⟨e00, e01, e10, e11, e20, e21, e30, e31, e40, e41, e50, e51, e60, e61, e71, e70⟩ := block_positions t
  show V c main_v17 (((cfg0.win 6).blk t).view.emb y) = V c main_v17 y
  refine congrArg (V c main_v17) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Feature window 0 at point `t`, row `j 0` of the block, is the array at the row the result block puts `j 0` on. -/
theorem blk_feat0 (c : Dev nD) (t : Fin cfg0.N) (j : S5000x128.Idx) (d : Fin 4) :
    iblk0 V c 0 t (ix2 (j 0) d) = V c main_arg0 (ix2 ((((cfg0.win 7).blk t).view.emb j) 0) d) := by
  obtain ⟨e00, e01, e10, e11, e20, e21, e30, e31, e40, e41, e50, e51, e60, e61, e71, e70⟩ := block_positions t
  show V c main_arg0 (((cfg0.win 0).blk t).view.emb (ix2 (j 0) d))
      = V c main_arg0 (ix2 ((((cfg0.win 7).blk t).view.emb j) 0) d)
  refine congrArg (V c main_arg0) (funext fun a => Fin.ext ?_)
  match a with
  | ⟨0, _⟩ => show win0_0.index t (0 : Fin 2) * 5000 + 1 * (j 0).val = win0_7.index t (0 : Fin 2) * 5000 + 1 * (j 0).val; omega
  | ⟨1, _⟩ => show win0_0.index t (1 : Fin 2) * 4 + 1 * d.val = d.val; omega

/-- Feature window 1 at point `t`, row `j 0` of the block, is the array at the row the result block puts `j 0` on. -/
theorem blk_feat1 (c : Dev nD) (t : Fin cfg0.N) (j : S5000x128.Idx) (d : Fin 4) :
    iblk0 V c 1 t (ix2 (j 0) d) = V c main_v13 (ix2 ((((cfg0.win 7).blk t).view.emb j) 0) d) := by
  obtain ⟨e00, e01, e10, e11, e20, e21, e30, e31, e40, e41, e50, e51, e60, e61, e71, e70⟩ := block_positions t
  show V c main_v13 (((cfg0.win 1).blk t).view.emb (ix2 (j 0) d))
      = V c main_v13 (ix2 ((((cfg0.win 7).blk t).view.emb j) 0) d)
  refine congrArg (V c main_v13) (funext fun a => Fin.ext ?_)
  match a with
  | ⟨0, _⟩ => show win0_1.index t (0 : Fin 2) * 5000 + 1 * (j 0).val = win0_7.index t (0 : Fin 2) * 5000 + 1 * (j 0).val; omega
  | ⟨1, _⟩ => show win0_1.index t (1 : Fin 2) * 4 + 1 * d.val = d.val; omega

/-- The result block keeps the channel: column `j 1` of the block is column `j 1` of the array. -/
theorem chan_eq (t : Fin cfg0.N) (j : S5000x128.Idx) : (j 1 : Fin 128) = (((cfg0.win 7).blk t).view.emb j) 1 := by
  obtain ⟨e00, e01, e10, e11, e20, e21, e30, e31, e40, e41, e50, e51, e60, e61, e71, e70⟩ := block_positions t
  exact Fin.ext (show (j 1).val = win0_7.index t (1 : Fin 2) * 128 + 1 * (j 1).val by omega)

/-- What point `t` writes back is block `t` of the layer over the whole arrays as the region finds them. -/
theorem flushed_eq (c : Dev nD) (t : Fin cfg0.N) :
    (dat0 V c).flushed 7 t = ((cfg0.win 7).blk t).view.read (Elt Ideal)
      (layer (V c main_arg0) (V c main_v13) (V c main_arg3) (V c main_v14) (V c main_v15) (V c main_v16) (V c main_v17)) := by
  show (cfg0.win 7).cut (grid0.coords t) ((dat0 V c).after 7 t) = _
  rw [after0_7]
  unfold out0_7
  rw [View.canon_unit_zero zero_offsets]
  simp only [View.ld_unit_zero (S := S5000x4) zero_offsets, View.ld_unit_zero (S := S4x128) zero_offsets,
    View.ld_unit_zero (S := S1x128) zero_offsets]
  funext j
  show k0_pay1 (F := Ideal) (iblk0 V c 0 t) (iblk0 V c 1 t) (iblk0 V c 2 t) (iblk0 V c 3 t) (iblk0 V c 4 t)
        (iblk0 V c 5 t) (iblk0 V c 6 t) j
      = layer (V c main_arg0) (V c main_v13) (V c main_arg3) (V c main_v14) (V c main_v15) (V c main_v16) (V c main_v17)
          (((cfg0.win 7).blk t).view.emb j)
  refine (pay0_at (iblk0 V c 0 t) (iblk0 V c 1 t) (iblk0 V c 2 t) (iblk0 V c 3 t) (iblk0 V c 4 t)
    (iblk0 V c 5 t) (iblk0 V c 6 t) j).trans ?_
  have hq := chan_eq t j
  unfold layer
  exact DenseSpec.dense_congr (iblk0 V c 0 t) (iblk0 V c 1 t) (V c main_arg0) (V c main_v13) (iblk0 V c 2 t) (V c main_arg3)
    _ _ _ _ _ _ j (((cfg0.win 7).blk t).view.emb j) (fun d => blk_feat0 V c t j d) (fun d => blk_feat1 V c t j d)
    (fun d => (congrFun (blk_weights V c t) (ix2 d (j 1))).trans (congrArg (fun q => V c main_arg3 (ix2 d q)) hq))
    (kscale_congr _ _ _ _ _ _ (blk_row3 V c t) (blk_row6 V c t) hq)
    (rowFn_congr _ _ _ _ (blk_row4 V c t) hq)
    (rowFn_congr _ _ _ _ (blk_row5 V c t) hq)

/-- An index of the result array is in point `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v18).slice (win0_7.rect t)).set ↔ _
  rw [View.set_slice_whole, Rect.mem_set_unit]
  exact Iff.rfl

/-- Every index of the result array is in some point's block: row `r` is in block `r / 5000`. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := block_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The result array after the region: the layer over the whole arrays as the region finds them. -/
theorem array_eq (c : Dev nD) :
    (dat0 V c).arrAt 7 cfg0.N
      = layer (V c main_arg0) (V c main_v13) (V c main_arg3) (V c main_v14) (V c main_v15) (V c main_v16) (V c main_v17) :=
  (dat0 V c).arrAt_eq_of_cover 7 _ (fun t _ => flushed_eq V c t) covered

end Cert.KernelIdeal.Blocks0

end
-- ==== Proof.KernelBlocks1.lean ====
/-
  Layer 2's kernel as one function of whole arrays.

  The grid has twenty points; point `t` reads rows `5000 t … 5000 t + 4999` of the node features and of the aggregated
  neighbour features, the whole weight matrix and the four normalisation rows, and writes rows `5000 t … 5000 t + 4999`
  of the result. A row of the result depends only on the same row of the two feature arrays, so each written block is
  the restriction of one whole-array function, the dense layer of `DenseSpec` over all `100000` rows, and the twenty
  blocks cover the result array. Stated for any contents of the buffers at the region's entry.
-/
import proofs.«147843_j40407052320950_2_alg».proof.Proof.Gen.KernelIdeal.Frame
import proofs.«147843_j40407052320950_2_alg».proof.Proof.KernelPayload
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The layer over all rows: node features `h`, neighbour sums `a`, weights `W`, and the rows `g` (weight), `b` (shift),
    `μ` (mean), `v` (variance) of the normalisation. -/
def layer (h a : S100000x128.Idx → EReal) (W : S128x128.Idx → EReal) (g b μ v : S1x128.Idx → EReal) : S100000x128.Idx → EReal :=
  DenseSpec.dense h a W (DenseSpec.kscale (rowFn g) (rowFn v)) (rowFn b) (rowFn μ)

/-- Where each window's block sits at point `t`: the two feature windows move with the result window along the rows and
    sit at column block `0`; the weight and the four rows are always block `(0, 0)`; the result's row block is below `20`. -/
theorem block_positions : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 19 :=
  (by decide +kernel : ∀ t : Fin grid1.N, _)

/-- Every row block of the result is some point's. -/
theorem block_onto : ∀ q0 : Fin 20, ∃ t : Fin cfg1.N, win1_7.index t = ![q0.val, 0] :=
  (by decide +kernel : ∀ q0 : Fin 20, ∃ t : Fin grid1.N, win1_7.index t = ![q0.val, 0])

theorem rowFn_congr (b b' : S1x128.Idx → EReal) (q q' : Fin 128) (hb : b = b') (hq : q = q') :
    rowFn b q = rowFn b' q' := by subst hb; subst hq; rfl

theorem kscale_congr (g g' v v' : S1x128.Idx → EReal) (q q' : Fin 128) (hg : g = g') (hv : v = v') (hq : q = q') :
    DenseSpec.kscale (rowFn g) (rowFn v) q = DenseSpec.kscale (rowFn g') (rowFn v') q' := by
  subst hg; subst hv; subst hq; rfl

/-- The weight window is always the whole weight matrix. -/
theorem blk_weights (c : Dev nD) (t : Fin cfg1.N) : (iblk1 V c 2 t : S128x128.Idx → EReal) = V c main_arg8 := funext fun y => by
  obtain ⟨e00, e01, e10, e11, e20, e21, e30, e31, e40, e41, e50, e51, e60, e61, e71, e70⟩ := block_positions t
  show V c main_arg8 (((cfg1.win 2).blk t).view.emb y) = V c main_arg8 y
  refine congrArg (V c main_arg8) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 is always the whole of its `[1, 128]` row. -/
theorem blk_row3 (c : Dev nD) (t : Fin cfg1.N) : (iblk1 V c 3 t : S1x128.Idx → EReal) = V c main_v31 := funext fun y => by
  obtain ⟨e00, e01, e10, e11, e20, e21, e30, e31, e40, e41, e50, e51, e60, e61, e71, e70⟩ := block_positions t
  show V c main_v31 (((cfg1.win 3).blk t).view.emb y) = V c main_v31 y
  refine congrArg (V c main_v31) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 is always the whole of its `[1, 128]` row. -/
theorem blk_row4 (c : Dev nD) (t : Fin cfg1.N) : (iblk1 V c 4 t : S1x128.Idx → EReal) = V c main_v32 := funext fun y => by
  obtain ⟨e00, e01, e10, e11, e20, e21, e30, e31, e40, e41, e50, e51, e60, e61, e71, e70⟩ := block_positions t
  show V c main_v32 (((cfg1.win 4).blk t).view.emb y) = V c main_v32 y
  refine congrArg (V c main_v32) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is always the whole of its `[1, 128]` row. -/
theorem blk_row5 (c : Dev nD) (t : Fin cfg1.N) : (iblk1 V c 5 t : S1x128.Idx → EReal) = V c main_v33 := funext fun y => by
  obtain ⟨e00, e01, e10, e11, e20, e21, e30, e31, e40, e41, e50, e51, e60, e61, e71, e70⟩ := block_positions t
  show V c main_v33 (((cfg1.win 5).blk t).view.emb y) = V c main_v33 y
  refine congrArg (V c main_v33) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 is always the whole of its `[1, 128]` row. -/
theorem blk_row6 (c : Dev nD) (t : Fin cfg1.N) : (iblk1 V c 6 t : S1x128.Idx → EReal) = V c main_v34 := funext fun y => by
  obtain ⟨e00, e01, e10, e11, e20, e21, e30, e31, e40, e41, e50, e51, e60, e61, e71, e70⟩ := block_positions t
  show V c main_v34 (((cfg1.win 6).blk t).view.emb y) = V c main_v34 y
  refine congrArg (V c main_v34) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Feature window 0 at point `t`, row `j 0` of the block, is the array at the row the result block puts `j 0` on. -/
theorem blk_feat0 (c : Dev nD) (t : Fin cfg1.N) (j : S5000x128.Idx) (d : Fin 128) :
    iblk1 V c 0 t (ix2 (j 0) d) = V c main_v18 (ix2 ((((cfg1.win 7).blk t).view.emb j) 0) d) := by
  obtain ⟨e00, e01, e10, e11, e20, e21, e30, e31, e40, e41, e50, e51, e60, e61, e71, e70⟩ := block_positions t
  show V c main_v18 (((cfg1.win 0).blk t).view.emb (ix2 (j 0) d))
      = V c main_v18 (ix2 ((((cfg1.win 7).blk t).view.emb j) 0) d)
  refine congrArg (V c main_v18) (funext fun a => Fin.ext ?_)
  match a with
  | ⟨0, _⟩ => show win1_0.index t (0 : Fin 2) * 5000 + 1 * (j 0).val = win1_7.index t (0 : Fin 2) * 5000 + 1 * (j 0).val; omega
  | ⟨1, _⟩ => show win1_0.index t (1 : Fin 2) * 128 + 1 * d.val = d.val; omega

/-- Feature window 1 at point `t`, row `j 0` of the block, is the array at the row the result block puts `j 0` on. -/
theorem blk_feat1 (c : Dev nD) (t : Fin cfg1.N) (j : S5000x128.Idx) (d : Fin 128) :
    iblk1 V c 1 t (ix2 (j 0) d) = V c main_v30 (ix2 ((((cfg1.win 7).blk t).view.emb j) 0) d) := by
  obtain ⟨e00, e01, e10, e11, e20, e21, e30, e31, e40, e41, e50, e51, e60, e61, e71, e70⟩ := block_positions t
  show V c main_v30 (((cfg1.win 1).blk t).view.emb (ix2 (j 0) d))
      = V c main_v30 (ix2 ((((cfg1.win 7).blk t).view.emb j) 0) d)
  refine congrArg (V c main_v30) (funext fun a => Fin.ext ?_)
  match a with
  | ⟨0, _⟩ => show win1_1.index t (0 : Fin 2) * 5000 + 1 * (j 0).val = win1_7.index t (0 : Fin 2) * 5000 + 1 * (j 0).val; omega
  | ⟨1, _⟩ => show win1_1.index t (1 : Fin 2) * 128 + 1 * d.val = d.val; omega

/-- The result block keeps the channel: column `j 1` of the block is column `j 1` of the array. -/
theorem chan_eq (t : Fin cfg1.N) (j : S5000x128.Idx) : (j 1 : Fin 128) = (((cfg1.win 7).blk t).view.emb j) 1 := by
  obtain ⟨e00, e01, e10, e11, e20, e21, e30, e31, e40, e41, e50, e51, e60, e61, e71, e70⟩ := block_positions t
  exact Fin.ext (show (j 1).val = win1_7.index t (1 : Fin 2) * 128 + 1 * (j 1).val by omega)

/-- What point `t` writes back is block `t` of the layer over the whole arrays as the region finds them. -/
theorem flushed_eq (c : Dev nD) (t : Fin cfg1.N) :
    (dat1 V c).flushed 7 t = ((cfg1.win 7).blk t).view.read (Elt Ideal)
      (layer (V c main_v18) (V c main_v30) (V c main_arg8) (V c main_v31) (V c main_v32) (V c main_v33) (V c main_v34)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext j
  show k1_pay1 (F := Ideal) (iblk1 V c 0 t) (iblk1 V c 1 t) (iblk1 V c 2 t) (iblk1 V c 3 t) (iblk1 V c 4 t)
        (iblk1 V c 5 t) (iblk1 V c 6 t) j
      = layer (V c main_v18) (V c main_v30) (V c main_arg8) (V c main_v31) (V c main_v32) (V c main_v33) (V c main_v34)
          (((cfg1.win 7).blk t).view.emb j)
  refine (pay1_at (iblk1 V c 0 t) (iblk1 V c 1 t) (iblk1 V c 2 t) (iblk1 V c 3 t) (iblk1 V c 4 t)
    (iblk1 V c 5 t) (iblk1 V c 6 t) j).trans ?_
  have hq := chan_eq t j
  unfold layer
  exact DenseSpec.dense_congr (iblk1 V c 0 t) (iblk1 V c 1 t) (V c main_v18) (V c main_v30) (iblk1 V c 2 t) (V c main_arg8)
    _ _ _ _ _ _ j (((cfg1.win 7).blk t).view.emb j) (fun d => blk_feat0 V c t j d) (fun d => blk_feat1 V c t j d)
    (fun d => (congrFun (blk_weights V c t) (ix2 d (j 1))).trans (congrArg (fun q => V c main_arg8 (ix2 d q)) hq))
    (kscale_congr _ _ _ _ _ _ (blk_row3 V c t) (blk_row6 V c t) hq)
    (rowFn_congr _ _ _ _ (blk_row4 V c t) hq)
    (rowFn_congr _ _ _ _ (blk_row5 V c t) hq)

/-- An index of the result array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v35).slice (win1_7.rect t)).set ↔ _
  rw [View.set_slice_whole, Rect.mem_set_unit]
  exact Iff.rfl

/-- Every index of the result array is in some point's block: row `r` is in block `r / 5000`. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := block_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The result array after the region: the layer over the whole arrays as the region finds them. -/
theorem array_eq (c : Dev nD) :
    (dat1 V c).arrAt 7 cfg1.N
      = layer (V c main_v18) (V c main_v30) (V c main_arg8) (V c main_v31) (V c main_v32) (V c main_v33) (V c main_v34) :=
  (dat1 V c).arrAt_eq_of_cover 7 _ (fun t _ => flushed_eq V c t) covered

end Cert.KernelIdeal.Blocks1

end
-- ==== Proof.KernelBlocks2.lean ====
/-
  Layer 3's kernel as one function of whole arrays.

  The grid has twenty points; point `t` reads rows `5000 t … 5000 t + 4999` of the node features and of the aggregated
  neighbour features, the whole weight matrix and the four normalisation rows, and writes rows `5000 t … 5000 t + 4999`
  of the result. A row of the result depends only on the same row of the two feature arrays, so each written block is
  the restriction of one whole-array function, the dense layer of `DenseSpec` over all `100000` rows, and the twenty
  blocks cover the result array. Stated for any contents of the buffers at the region's entry.
-/
import proofs.«147843_j40407052320950_2_alg».proof.Proof.Gen.KernelIdeal.Frame
import proofs.«147843_j40407052320950_2_alg».proof.Proof.KernelPayload
import Idealize.ShloMosaic.Lib.Pipeline.Value

set_option maxRecDepth 16384

noncomputable section

namespace Cert.KernelIdeal.Blocks2

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The layer over all rows: node features `h`, neighbour sums `a`, weights `W`, and the rows `g` (weight), `b` (shift),
    `μ` (mean), `v` (variance) of the normalisation. -/
def layer (h a : S100000x128.Idx → EReal) (W : S128x128.Idx → EReal) (g b μ v : S1x128.Idx → EReal) : S100000x128.Idx → EReal :=
  DenseSpec.dense h a W (DenseSpec.kscale (rowFn g) (rowFn v)) (rowFn b) (rowFn μ)

/-- Where each window's block sits at point `t`: the two feature windows move with the result window along the rows and
    sit at column block `0`; the weight and the four rows are always block `(0, 0)`; the result's row block is below `20`. -/
theorem block_positions : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 19 :=
  (by decide +kernel : ∀ t : Fin grid2.N, _)

/-- Every row block of the result is some point's. -/
theorem block_onto : ∀ q0 : Fin 20, ∃ t : Fin cfg2.N, win2_7.index t = ![q0.val, 0] :=
  (by decide +kernel : ∀ q0 : Fin 20, ∃ t : Fin grid2.N, win2_7.index t = ![q0.val, 0])

theorem rowFn_congr (b b' : S1x128.Idx → EReal) (q q' : Fin 128) (hb : b = b') (hq : q = q') :
    rowFn b q = rowFn b' q' := by subst hb; subst hq; rfl

theorem kscale_congr (g g' v v' : S1x128.Idx → EReal) (q q' : Fin 128) (hg : g = g') (hv : v = v') (hq : q = q') :
    DenseSpec.kscale (rowFn g) (rowFn v) q = DenseSpec.kscale (rowFn g') (rowFn v') q' := by
  subst hg; subst hv; subst hq; rfl

/-- The weight window is always the whole weight matrix. -/
theorem blk_weights (c : Dev nD) (t : Fin cfg2.N) : (iblk2 V c 2 t : S128x128.Idx → EReal) = V c main_arg13 := funext fun y => by
  obtain ⟨e00, e01, e10, e11, e20, e21, e30, e31, e40, e41, e50, e51, e60, e61, e71, e70⟩ := block_positions t
  show V c main_arg13 (((cfg2.win 2).blk t).view.emb y) = V c main_arg13 y
  refine congrArg (V c main_arg13) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3 is always the whole of its `[1, 128]` row. -/
theorem blk_row3 (c : Dev nD) (t : Fin cfg2.N) : (iblk2 V c 3 t : S1x128.Idx → EReal) = V c main_v48 := funext fun y => by
  obtain ⟨e00, e01, e10, e11, e20, e21, e30, e31, e40, e41, e50, e51, e60, e61, e71, e70⟩ := block_positions t
  show V c main_v48 (((cfg2.win 3).blk t).view.emb y) = V c main_v48 y
  refine congrArg (V c main_v48) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 is always the whole of its `[1, 128]` row. -/
theorem blk_row4 (c : Dev nD) (t : Fin cfg2.N) : (iblk2 V c 4 t : S1x128.Idx → EReal) = V c main_v49 := funext fun y => by
  obtain ⟨e00, e01, e10, e11, e20, e21, e30, e31, e40, e41, e50, e51, e60, e61, e71, e70⟩ := block_positions t
  show V c main_v49 (((cfg2.win 4).blk t).view.emb y) = V c main_v49 y
  refine congrArg (V c main_v49) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 is always the whole of its `[1, 128]` row. -/
theorem blk_row5 (c : Dev nD) (t : Fin cfg2.N) : (iblk2 V c 5 t : S1x128.Idx → EReal) = V c main_v50 := funext fun y => by
  obtain ⟨e00, e01, e10, e11, e20, e21, e30, e31, e40, e41, e50, e51, e60, e61, e71, e70⟩ := block_positions t
  show V c main_v50 (((cfg2.win 5).blk t).view.emb y) = V c main_v50 y
  refine congrArg (V c main_v50) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6 is always the whole of its `[1, 128]` row. -/
theorem blk_row6 (c : Dev nD) (t : Fin cfg2.N) : (iblk2 V c 6 t : S1x128.Idx → EReal) = V c main_v51 := funext fun y => by
  obtain ⟨e00, e01, e10, e11, e20, e21, e30, e31, e40, e41, e50, e51, e60, e61, e71, e70⟩ := block_positions t
  show V c main_v51 (((cfg2.win 6).blk t).view.emb y) = V c main_v51 y
  refine congrArg (V c main_v51) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Feature window 0 at point `t`, row `j 0` of the block, is the array at the row the result block puts `j 0` on. -/
theorem blk_feat0 (c : Dev nD) (t : Fin cfg2.N) (j : S5000x128.Idx) (d : Fin 128) :
    iblk2 V c 0 t (ix2 (j 0) d) = V c main_v35 (ix2 ((((cfg2.win 7).blk t).view.emb j) 0) d) := by
  obtain ⟨e00, e01, e10, e11, e20, e21, e30, e31, e40, e41, e50, e51, e60, e61, e71, e70⟩ := block_positions t
  show V c main_v35 (((cfg2.win 0).blk t).view.emb (ix2 (j 0) d))
      = V c main_v35 (ix2 ((((cfg2.win 7).blk t).view.emb j) 0) d)
  refine congrArg (V c main_v35) (funext fun a => Fin.ext ?_)
  match a with
  | ⟨0, _⟩ => show win2_0.index t (0 : Fin 2) * 5000 + 1 * (j 0).val = win2_7.index t (0 : Fin 2) * 5000 + 1 * (j 0).val; omega
  | ⟨1, _⟩ => show win2_0.index t (1 : Fin 2) * 128 + 1 * d.val = d.val; omega

/-- Feature window 1 at point `t`, row `j 0` of the block, is the array at the row the result block puts `j 0` on. -/
theorem blk_feat1 (c : Dev nD) (t : Fin cfg2.N) (j : S5000x128.Idx) (d : Fin 128) :
    iblk2 V c 1 t (ix2 (j 0) d) = V c main_v47 (ix2 ((((cfg2.win 7).blk t).view.emb j) 0) d) := by
  obtain ⟨e00, e01, e10, e11, e20, e21, e30, e31, e40, e41, e50, e51, e60, e61, e71, e70⟩ := block_positions t
  show V c main_v47 (((cfg2.win 1).blk t).view.emb (ix2 (j 0) d))
      = V c main_v47 (ix2 ((((cfg2.win 7).blk t).view.emb j) 0) d)
  refine congrArg (V c main_v47) (funext fun a => Fin.ext ?_)
  match a with
  | ⟨0, _⟩ => show win2_1.index t (0 : Fin 2) * 5000 + 1 * (j 0).val = win2_7.index t (0 : Fin 2) * 5000 + 1 * (j 0).val; omega
  | ⟨1, _⟩ => show win2_1.index t (1 : Fin 2) * 128 + 1 * d.val = d.val; omega

/-- The result block keeps the channel: column `j 1` of the block is column `j 1` of the array. -/
theorem chan_eq (t : Fin cfg2.N) (j : S5000x128.Idx) : (j 1 : Fin 128) = (((cfg2.win 7).blk t).view.emb j) 1 := by
  obtain ⟨e00, e01, e10, e11, e20, e21, e30, e31, e40, e41, e50, e51, e60, e61, e71, e70⟩ := block_positions t
  exact Fin.ext (show (j 1).val = win2_7.index t (1 : Fin 2) * 128 + 1 * (j 1).val by omega)

/-- What point `t` writes back is block `t` of the layer over the whole arrays as the region finds them. -/
theorem flushed_eq (c : Dev nD) (t : Fin cfg2.N) :
    (dat2 V c).flushed 7 t = ((cfg2.win 7).blk t).view.read (Elt Ideal)
      (layer (V c main_v35) (V c main_v47) (V c main_arg13) (V c main_v48) (V c main_v49) (V c main_v50) (V c main_v51)) := by
  show (cfg2.win 7).cut (grid2.coords t) ((dat2 V c).after 7 t) = _
  rw [after2_7]
  unfold out2_7
  rw [View.canon_unit_zero zero_offsets]
  simp only [View.ld_unit_zero (S := S5000x128) zero_offsets, View.ld_unit_zero (S := S128x128) zero_offsets,
    View.ld_unit_zero (S := S1x128) zero_offsets]
  funext j
  show k2_pay1 (F := Ideal) (iblk2 V c 0 t) (iblk2 V c 1 t) (iblk2 V c 2 t) (iblk2 V c 3 t) (iblk2 V c 4 t)
        (iblk2 V c 5 t) (iblk2 V c 6 t) j
      = layer (V c main_v35) (V c main_v47) (V c main_arg13) (V c main_v48) (V c main_v49) (V c main_v50) (V c main_v51)
          (((cfg2.win 7).blk t).view.emb j)
  refine (pay2_at (iblk2 V c 0 t) (iblk2 V c 1 t) (iblk2 V c 2 t) (iblk2 V c 3 t) (iblk2 V c 4 t)
    (iblk2 V c 5 t) (iblk2 V c 6 t) j).trans ?_
  have hq := chan_eq t j
  unfold layer
  exact DenseSpec.dense_congr (iblk2 V c 0 t) (iblk2 V c 1 t) (V c main_v35) (V c main_v47) (iblk2 V c 2 t) (V c main_arg13)
    _ _ _ _ _ _ j (((cfg2.win 7).blk t).view.emb j) (fun d => blk_feat0 V c t j d) (fun d => blk_feat1 V c t j d)
    (fun d => (congrFun (blk_weights V c t) (ix2 d (j 1))).trans (congrArg (fun q => V c main_arg13 (ix2 d q)) hq))
    (kscale_congr _ _ _ _ _ _ (blk_row3 V c t) (blk_row6 V c t) hq)
    (rowFn_congr _ _ _ _ (blk_row4 V c t) hq)
    (rowFn_congr _ _ _ _ (blk_row5 V c t) hq)

/-- An index of the result array is in point `t`'s block iff each coordinate is in the block's range on its axis. -/
theorem mem_blk (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v52).slice (win2_7.rect t)).set ↔ _
  rw [View.set_slice_whole, Rect.mem_set_unit]
  exact Iff.rfl

/-- Every index of the result array is in some point's block: row `r` is in block `r / 5000`. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := block_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The result array after the region: the layer over the whole arrays as the region finds them. -/
theorem array_eq (c : Dev nD) :
    (dat2 V c).arrAt 7 cfg2.N
      = layer (V c main_v35) (V c main_v47) (V c main_arg13) (V c main_v48) (V c main_v49) (V c main_v50) (V c main_v51) :=
  (dat2 V c).arrAt_eq_of_cover 7 _ (fun t _ => flushed_eq V c t) covered

end Cert.KernelIdeal.Blocks2

end
-- ==== Proof.RefLayer.lean ====
/-
  Each of the reference's three layers, read at an index.

  The reference computes a layer with whole-array host operations: the sum of the node features and the aggregated
  neighbour features, a matrix product with the weights, the mean subtracted through two broadcasts of a `[128]`
  vector, the product with `weight / sqrt (variance + ε)` (computed on `[128]` vectors and broadcast twice), the shift
  added, and a maximum with a broadcast zero. At the index `(p, q)` this is the dense layer of `DenseSpec` with the
  scale spelt as a quotient; every broadcast keeps the channel `q`, and the contraction runs over the inner index.
-/
import proofs.«147843_j40407052320950_2_alg».proof.Proof.Gen.ReferenceIdeal.Read
import proofs.«147843_j40407052320950_2_alg».proof.Proof.DenseSpec
import Idealize.ShloMosaic.PureOps.Ideal.Laws

set_option maxRecDepth 16384

noncomputable section

namespace Cert.ReferenceIdeal.RefLayer

open Idealize.ShloMosaic Idealize.ShloMosaic.ValueIdx Cert.ReferenceIdeal
open scoped BigOperators

/-- Layer 1 of the reference, read at every index: the dense layer of its inputs with the scale spelt as a quotient. -/
theorem layer1 (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) :
    Read.val_main_v29 (F := Ideal) x0 x1 x3 x4 x5 x6 x7
      = DenseSpec.dense x0 (Read.val_main_v13 (F := Ideal) x0 x1) x3
          (DenseSpec.rscale (DenseSpec.vecFn x4) (DenseSpec.vecFn x7)) (DenseSpec.vecFn x5) (DenseSpec.vecFn x6) := by
  funext i
  obtain ⟨p, q, rfl⟩ : ∃ (p : Fin 100000) (q : Fin 128), i = ix2 p q := ⟨i 0, i 1, eq_ix2 i⟩
  have el : ∀ k : Fin 4, Read.lidx_main_v15 (ix2 p q) k = ix2 p k := fun k => funext fun a => by
    match a with | ⟨0, _⟩ => rfl | ⟨1, _⟩ => rfl
  have er : ∀ k : Fin 4, Read.ridx_main_v15 (ix2 p q) k = ix2 k q := fun k => funext fun a => by
    match a with | ⟨0, _⟩ => rfl | ⟨1, _⟩ => rfl
  have em : Read.idx_main_v16 (Read.idx_main_v17 (ix2 p q)) = ix1 q := funext fun a => by match a with | ⟨0, _⟩ => rfl
  have es : Read.idx_main_v23 (Read.idx_main_v24 (ix2 p q)) = ix1 q := funext fun a => by match a with | ⟨0, _⟩ => rfl
  have eb : Read.idx_main_v26 (Read.idx_main_v27 (ix2 p q)) = ix1 q := funext fun a => by match a with | ⟨0, _⟩ => rfl
  rw [DenseSpec.dense_ix2, Read.val_main_v29_apply, Read.val_main_v28_apply, Read.val_main_v25_apply,
    Read.val_main_v18_apply, Read.val_main_v15_apply, Read.val_main_v17_apply, Read.val_main_v16_apply,
    Read.val_main_v24_apply, Read.val_main_v23_apply, Read.val_main_v22_apply, Read.val_main_v21_apply,
    Read.val_main_v20_apply, Read.val_main_v19_apply, Read.val_main_cst_1_apply, Read.val_main_v27_apply,
    Read.val_main_v26_apply, Read.val_main_call0_v0_apply, Read.val_main_call0_cst_apply]
  simp only [el, er, em, es, eb, Read.val_main_v14_apply, Ideal.addf_def, Ideal.subf_def, Ideal.mulf_def,
    Ideal.maximumf_def, Ideal.hostDivf_def, Ideal.hostUnary_sqrt_def, Ideal.ofBits_def, Ideal.ofBits_zero_f32,
    DenseSpec.rscale, DenseSpec.vecFn]

/-- Layer 2 of the reference, read at every index: the dense layer of its inputs with the scale spelt as a quotient. -/
theorem layer2 (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) :
    Read.val_main_v55 (F := Ideal) x0 x1 x3 x4 x5 x6 x7 x8 x9 x10 x11 x12
      = DenseSpec.dense (Read.val_main_v29 (F := Ideal) x0 x1 x3 x4 x5 x6 x7) (Read.val_main_v39 (F := Ideal) x0 x1 x3 x4 x5 x6 x7) x8
          (DenseSpec.rscale (DenseSpec.vecFn x9) (DenseSpec.vecFn x12)) (DenseSpec.vecFn x10) (DenseSpec.vecFn x11) := by
  funext i
  obtain ⟨p, q, rfl⟩ : ∃ (p : Fin 100000) (q : Fin 128), i = ix2 p q := ⟨i 0, i 1, eq_ix2 i⟩
  have el : ∀ k : Fin 128, Read.lidx_main_v41 (ix2 p q) k = ix2 p k := fun k => funext fun a => by
    match a with | ⟨0, _⟩ => rfl | ⟨1, _⟩ => rfl
  have er : ∀ k : Fin 128, Read.ridx_main_v41 (ix2 p q) k = ix2 k q := fun k => funext fun a => by
    match a with | ⟨0, _⟩ => rfl | ⟨1, _⟩ => rfl
  have em : Read.idx_main_v42 (Read.idx_main_v43 (ix2 p q)) = ix1 q := funext fun a => by match a with | ⟨0, _⟩ => rfl
  have es : Read.idx_main_v49 (Read.idx_main_v50 (ix2 p q)) = ix1 q := funext fun a => by match a with | ⟨0, _⟩ => rfl
  have eb : Read.idx_main_v52 (Read.idx_main_v53 (ix2 p q)) = ix1 q := funext fun a => by match a with | ⟨0, _⟩ => rfl
  rw [DenseSpec.dense_ix2, Read.val_main_v55_apply, Read.val_main_v54_apply, Read.val_main_v51_apply,
    Read.val_main_v44_apply, Read.val_main_v41_apply, Read.val_main_v43_apply, Read.val_main_v42_apply,
    Read.val_main_v50_apply, Read.val_main_v49_apply, Read.val_main_v48_apply, Read.val_main_v47_apply,
    Read.val_main_v46_apply, Read.val_main_v45_apply, Read.val_main_cst_5_apply, Read.val_main_v53_apply,
    Read.val_main_v52_apply, Read.val_main_call1_v0_apply, Read.val_main_call1_cst_apply]
  simp only [el, er, em, es, eb, Read.val_main_v40_apply, Ideal.addf_def, Ideal.subf_def, Ideal.mulf_def,
    Ideal.maximumf_def, Ideal.hostDivf_def, Ideal.hostUnary_sqrt_def, Ideal.ofBits_def, Ideal.ofBits_zero_f32,
    DenseSpec.rscale, DenseSpec.vecFn]

/-- Layer 3 of the reference, read at every index: the dense layer of its inputs with the scale spelt as a quotient. -/
theorem layer3 (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) :
    Read.val_main_v81 (F := Ideal) x0 x1 x3 x4 x5 x6 x7 x8 x9 x10 x11 x12 x13 x14 x15 x16 x17
      = DenseSpec.dense (Read.val_main_v55 (F := Ideal) x0 x1 x3 x4 x5 x6 x7 x8 x9 x10 x11 x12) (Read.val_main_v65 (F := Ideal) x0 x1 x3 x4 x5 x6 x7 x8 x9 x10 x11 x12) x13
          (DenseSpec.rscale (DenseSpec.vecFn x14) (DenseSpec.vecFn x17)) (DenseSpec.vecFn x15) (DenseSpec.vecFn x16) := by
  funext i
  obtain ⟨p, q, rfl⟩ : ∃ (p : Fin 100000) (q : Fin 128), i = ix2 p q := ⟨i 0, i 1, eq_ix2 i⟩
  have el : ∀ k : Fin 128, Read.lidx_main_v67 (ix2 p q) k = ix2 p k := fun k => funext fun a => by
    match a with | ⟨0, _⟩ => rfl | ⟨1, _⟩ => rfl
  have er : ∀ k : Fin 128, Read.ridx_main_v67 (ix2 p q) k = ix2 k q := fun k => funext fun a => by
    match a with | ⟨0, _⟩ => rfl | ⟨1, _⟩ => rfl
  have em : Read.idx_main_v68 (Read.idx_main_v69 (ix2 p q)) = ix1 q := funext fun a => by match a with | ⟨0, _⟩ => rfl
  have es : Read.idx_main_v75 (Read.idx_main_v76 (ix2 p q)) = ix1 q := funext fun a => by match a with | ⟨0, _⟩ => rfl
  have eb : Read.idx_main_v78 (Read.idx_main_v79 (ix2 p q)) = ix1 q := funext fun a => by match a with | ⟨0, _⟩ => rfl
  rw [DenseSpec.dense_ix2, Read.val_main_v81_apply, Read.val_main_v80_apply, Read.val_main_v77_apply,
    Read.val_main_v70_apply, Read.val_main_v67_apply, Read.val_main_v69_apply, Read.val_main_v68_apply,
    Read.val_main_v76_apply, Read.val_main_v75_apply, Read.val_main_v74_apply, Read.val_main_v73_apply,
    Read.val_main_v72_apply, Read.val_main_v71_apply, Read.val_main_cst_9_apply, Read.val_main_v79_apply,
    Read.val_main_v78_apply, Read.val_main_call2_v0_apply, Read.val_main_call2_cst_apply]
  simp only [el, er, em, es, eb, Read.val_main_v66_apply, Ideal.addf_def, Ideal.subf_def, Ideal.mulf_def,
    Ideal.maximumf_def, Ideal.hostDivf_def, Ideal.hostUnary_sqrt_def, Ideal.ofBits_def, Ideal.ofBits_zero_f32,
    DenseSpec.rscale, DenseSpec.vecFn]

end Cert.ReferenceIdeal.RefLayer

end
-- ==== Proof.KernelValue.lean ====
/-
  The idealized kernel program's result as a function of its arguments.

  The program's final contents are a fold: a stretch of host operations (the neighbour aggregation: a gather along the
  edges' sources and a scatter-add onto their targets, and the reshapes of the normalisation vectors to rows), a layer
  kernel, and so on three times, then the pooling tail. Each layer kernel's result array is the dense layer over whole
  arrays; where `variance + ε` is positive that is the reference's layer, and the host operations around it are the
  reference's own (a conversion to the narrow float format and back around the gather is the identity on the extended
  reals), so buffer by buffer the fold holds the reference's stage values.
-/
import proofs.«147843_j40407052320950_2_alg».proof.Proof.KernelRun
import proofs.«147843_j40407052320950_2_alg».proof.Proof.KernelBlocks0
import proofs.«147843_j40407052320950_2_alg».proof.Proof.KernelBlocks1
import proofs.«147843_j40407052320950_2_alg».proof.Proof.KernelBlocks2
import proofs.«147843_j40407052320950_2_alg».proof.Proof.RefLayer
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-- A `[128]` vector reshaped to a `[1, 128]` row, read as a function of the channel, is the vector. -/
theorem row_eq (x : S128.Idx → EReal) :
    Payload.rowFn (shapeCast S1x128 x shapeCasts_S128_S1x128) = DenseSpec.vecFn x :=
  funext fun q => shapeCast_a_1a_apply x shapeCasts_S128_S1x128 (0 : Fin 1) q

/-! ## The layers: the kernel's spelling is the reference's where `variance + ε` is positive -/

theorem layer1_bridge (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal))
    (hv : ∀ q : Fin 128, 0 < x7 (ix1 q) + Ideal.ofBits .f32 0x3727C5AC#32) :
    Blocks0.layer x0 (Cert.ReferenceIdeal.Read.val_main_v13 (F := Ideal) x0 x1) x3
        (shapeCast S1x128 x4 shapeCasts_S128_S1x128) (shapeCast S1x128 x5 shapeCasts_S128_S1x128)
        (shapeCast S1x128 x6 shapeCasts_S128_S1x128) (shapeCast S1x128 x7 shapeCasts_S128_S1x128)
      = Cert.ReferenceIdeal.Read.val_main_v29 (F := Ideal) x0 x1 x3 x4 x5 x6 x7 := by
  rw [Cert.ReferenceIdeal.RefLayer.layer1]
  unfold Blocks0.layer
  rw [row_eq x4, row_eq x7, row_eq x5, row_eq x6,
    DenseSpec.kscale_eq_rscale (DenseSpec.vecFn x4) (DenseSpec.vecFn x7) hv]

theorem layer2_bridge (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal))
    (hv : ∀ q : Fin 128, 0 < x12 (ix1 q) + Ideal.ofBits .f32 0x3727C5AC#32) :
    Blocks1.layer (Cert.ReferenceIdeal.Read.val_main_v29 (F := Ideal) x0 x1 x3 x4 x5 x6 x7) (Cert.ReferenceIdeal.Read.val_main_v39 (F := Ideal) x0 x1 x3 x4 x5 x6 x7) x8
        (shapeCast S1x128 x9 shapeCasts_S128_S1x128) (shapeCast S1x128 x10 shapeCasts_S128_S1x128)
        (shapeCast S1x128 x11 shapeCasts_S128_S1x128) (shapeCast S1x128 x12 shapeCasts_S128_S1x128)
      = Cert.ReferenceIdeal.Read.val_main_v55 (F := Ideal) x0 x1 x3 x4 x5 x6 x7 x8 x9 x10 x11 x12 := by
  rw [Cert.ReferenceIdeal.RefLayer.layer2]
  unfold Blocks1.layer
  rw [row_eq x9, row_eq x12, row_eq x10, row_eq x11,
    DenseSpec.kscale_eq_rscale (DenseSpec.vecFn x9) (DenseSpec.vecFn x12) hv]

theorem layer3_bridge (x0 : (⟨S100000x4, .f32⟩ : BufTy).Contents (Elt Ideal)) (x1 : (⟨S2x1600000, .i32⟩ : BufTy).Contents (Elt Ideal)) (x3 : (⟨S4x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal))
    (hv : ∀ q : Fin 128, 0 < x17 (ix1 q) + Ideal.ofBits .f32 0x3727C5AC#32) :
    Blocks2.layer (Cert.ReferenceIdeal.Read.val_main_v55 (F := Ideal) x0 x1 x3 x4 x5 x6 x7 x8 x9 x10 x11 x12) (Cert.ReferenceIdeal.Read.val_main_v65 (F := Ideal) x0 x1 x3 x4 x5 x6 x7 x8 x9 x10 x11 x12) x13
        (shapeCast S1x128 x14 shapeCasts_S128_S1x128) (shapeCast S1x128 x15 shapeCasts_S128_S1x128)
        (shapeCast S1x128 x16 shapeCasts_S128_S1x128) (shapeCast S1x128 x17 shapeCasts_S128_S1x128)
      = Cert.ReferenceIdeal.Read.val_main_v81 (F := Ideal) x0 x1 x3 x4 x5 x6 x7 x8 x9 x10 x11 x12 x13 x14 x15 x16 x17 := by
  rw [Cert.ReferenceIdeal.RefLayer.layer3]
  unfold Blocks2.layer
  rw [row_eq x14, row_eq x17, row_eq x15, row_eq x16,
    DenseSpec.kscale_eq_rscale (DenseSpec.vecFn x14) (DenseSpec.vecFn x17) hv]

/-! ## A layer of equal inputs -/

theorem layer0_congr {h h' a a' : S100000x4.Idx → EReal} {W W' : S4x128.Idx → EReal}
    {g g' b b' μ μ' v v' : S1x128.Idx → EReal}
    (e0 : h = h') (e1 : a = a') (e2 : W = W') (e3 : g = g') (e4 : b = b') (e5 : μ = μ') (e6 : v = v') :
    Blocks0.layer h a W g b μ v = Blocks0.layer h' a' W' g' b' μ' v' := by
  subst e0; subst e1; subst e2; subst e3; subst e4; subst e5; subst e6; rfl

theorem layer1_congr {h h' a a' : S100000x128.Idx → EReal} {W W' : S128x128.Idx → EReal}
    {g g' b b' μ μ' v v' : S1x128.Idx → EReal}
    (e0 : h = h') (e1 : a = a') (e2 : W = W') (e3 : g = g') (e4 : b = b') (e5 : μ = μ') (e6 : v = v') :
    Blocks1.layer h a W g b μ v = Blocks1.layer h' a' W' g' b' μ' v' := by
  subst e0; subst e1; subst e2; subst e3; subst e4; subst e5; subst e6; rfl

theorem layer2_congr {h h' a a' : S100000x128.Idx → EReal} {W W' : S128x128.Idx → EReal}
    {g g' b b' μ μ' v v' : S1x128.Idx → EReal}
    (e0 : h = h') (e1 : a = a') (e2 : W = W') (e3 : g = g') (e4 : b = b') (e5 : μ = μ') (e6 : v = v') :
    Blocks2.layer h a W g b μ v = Blocks2.layer h' a' W' g' b' μ' v' := by
  subst e0; subst e1; subst e2; subst e3; subst e4; subst e5; subst e6; rfl

/-! ## Buffers no region writes: the source and target vectors of the edges and the arguments, at each boundary -/

theorem w2_main_v1 : W2 m ρ c (Proc.devRef .tc main_v1) = Cert.ReferenceIdeal.Read.val_main_v1 (F := Ideal) (arg m c main_arg1) :=
  (W2_of_ne m ρ c main_v1 (by decide)).trans (by
    show StableHlo.after hostOps0 (W0 m ρ c) (Proc.devRef .tc main_v1) = _
    dsimp only [hostOps0]; after_results_simp <;> rfl)

theorem w2_main_v3 : W2 m ρ c (Proc.devRef .tc main_v3) = Cert.ReferenceIdeal.Read.val_main_v3 (F := Ideal) (arg m c main_arg1) :=
  (W2_of_ne m ρ c main_v3 (by decide)).trans (by
    show StableHlo.after hostOps0 (W0 m ρ c) (Proc.devRef .tc main_v3) = _
    dsimp only [hostOps0]; after_results_simp <;> rfl)

theorem w2_main_arg2 : W2 m ρ c (Proc.devRef .tc main_arg2) = arg m c main_arg2 :=
  (W2_of_ne m ρ c main_arg2 (by decide)).trans (by
    show StableHlo.after hostOps0 (W0 m ρ c) (Proc.devRef .tc main_arg2) = _
    dsimp only [hostOps0]; after_results_simp <;> rfl)

theorem w2_main_arg8 : W2 m ρ c (Proc.devRef .tc main_arg8) = arg m c main_arg8 :=
  (W2_of_ne m ρ c main_arg8 (by decide)).trans (by
    show StableHlo.after hostOps0 (W0 m ρ c) (Proc.devRef .tc main_arg8) = _
    dsimp only [hostOps0]; after_results_simp <;> rfl)

theorem w2_main_arg9 : W2 m ρ c (Proc.devRef .tc main_arg9) = arg m c main_arg9 :=
  (W2_of_ne m ρ c main_arg9 (by decide)).trans (by
    show StableHlo.after hostOps0 (W0 m ρ c) (Proc.devRef .tc main_arg9) = _
    dsimp only [hostOps0]; after_results_simp <;> rfl)

theorem w2_main_arg10 : W2 m ρ c (Proc.devRef .tc main_arg10) = arg m c main_arg10 :=
  (W2_of_ne m ρ c main_arg10 (by decide)).trans (by
    show StableHlo.after hostOps0 (W0 m ρ c) (Proc.devRef .tc main_arg10) = _
    dsimp only [hostOps0]; after_results_simp <;> rfl)

theorem w2_main_arg11 : W2 m ρ c (Proc.devRef .tc main_arg11) = arg m c main_arg11 :=
  (W2_of_ne m ρ c main_arg11 (by decide)).trans (by
    show StableHlo.after hostOps0 (W0 m ρ c) (Proc.devRef .tc main_arg11) = _
    dsimp only [hostOps0]; after_results_simp <;> rfl)

theorem w2_main_arg12 : W2 m ρ c (Proc.devRef .tc main_arg12) = arg m c main_arg12 :=
  (W2_of_ne m ρ c main_arg12 (by decide)).trans (by
    show StableHlo.after hostOps0 (W0 m ρ c) (Proc.devRef .tc main_arg12) = _
    dsimp only [hostOps0]; after_results_simp <;> rfl)

theorem w2_main_arg13 : W2 m ρ c (Proc.devRef .tc main_arg13) = arg m c main_arg13 :=
  (W2_of_ne m ρ c main_arg13 (by decide)).trans (by
    show StableHlo.after hostOps0 (W0 m ρ c) (Proc.devRef .tc main_arg13) = _
    dsimp only [hostOps0]; after_results_simp <;> rfl)

theorem w2_main_arg14 : W2 m ρ c (Proc.devRef .tc main_arg14) = arg m c main_arg14 :=
  (W2_of_ne m ρ c main_arg14 (by decide)).trans (by
    show StableHlo.after hostOps0 (W0 m ρ c) (Proc.devRef .tc main_arg14) = _
    dsimp only [hostOps0]; after_results_simp <;> rfl)

theorem w2_main_arg15 : W2 m ρ c (Proc.devRef .tc main_arg15) = arg m c main_arg15 :=
  (W2_of_ne m ρ c main_arg15 (by decide)).trans (by
    show StableHlo.after hostOps0 (W0 m ρ c) (Proc.devRef .tc main_arg15) = _
    dsimp only [hostOps0]; after_results_simp <;> rfl)

theorem w2_main_arg16 : W2 m ρ c (Proc.devRef .tc main_arg16) = arg m c main_arg16 :=
  (W2_of_ne m ρ c main_arg16 (by decide)).trans (by
    show StableHlo.after hostOps0 (W0 m ρ c) (Proc.devRef .tc main_arg16) = _
    dsimp only [hostOps0]; after_results_simp <;> rfl)

theorem w2_main_arg17 : W2 m ρ c (Proc.devRef .tc main_arg17) = arg m c main_arg17 :=
  (W2_of_ne m ρ c main_arg17 (by decide)).trans (by
    show StableHlo.after hostOps0 (W0 m ρ c) (Proc.devRef .tc main_arg17) = _
    dsimp only [hostOps0]; after_results_simp <;> rfl)

theorem w2_main_arg18 : W2 m ρ c (Proc.devRef .tc main_arg18) = arg m c main_arg18 :=
  (W2_of_ne m ρ c main_arg18 (by decide)).trans (by
    show StableHlo.after hostOps0 (W0 m ρ c) (Proc.devRef .tc main_arg18) = _
    dsimp only [hostOps0]; after_results_simp <;> rfl)

theorem w4_main_v1 : W4 m ρ c (Proc.devRef .tc main_v1) = Cert.ReferenceIdeal.Read.val_main_v1 (F := Ideal) (arg m c main_arg1) :=
  (W4_of_ne m ρ c main_v1 (by decide)).trans (((by show StableHlo.after hostOps1 (W2 m ρ c) (Proc.devRef .tc main_v1) = W2 m ρ c (Proc.devRef .tc main_v1); dsimp only [hostOps1]; after_results_simp <;> rfl) :
    W3 m ρ c (Proc.devRef .tc main_v1) = W2 m ρ c (Proc.devRef .tc main_v1)).trans (w2_main_v1 m ρ c))

theorem w4_main_v3 : W4 m ρ c (Proc.devRef .tc main_v3) = Cert.ReferenceIdeal.Read.val_main_v3 (F := Ideal) (arg m c main_arg1) :=
  (W4_of_ne m ρ c main_v3 (by decide)).trans (((by show StableHlo.after hostOps1 (W2 m ρ c) (Proc.devRef .tc main_v3) = W2 m ρ c (Proc.devRef .tc main_v3); dsimp only [hostOps1]; after_results_simp <;> rfl) :
    W3 m ρ c (Proc.devRef .tc main_v3) = W2 m ρ c (Proc.devRef .tc main_v3)).trans (w2_main_v3 m ρ c))

theorem w4_main_arg2 : W4 m ρ c (Proc.devRef .tc main_arg2) = arg m c main_arg2 :=
  (W4_of_ne m ρ c main_arg2 (by decide)).trans (((by show StableHlo.after hostOps1 (W2 m ρ c) (Proc.devRef .tc main_arg2) = W2 m ρ c (Proc.devRef .tc main_arg2); dsimp only [hostOps1]; after_results_simp <;> rfl) :
    W3 m ρ c (Proc.devRef .tc main_arg2) = W2 m ρ c (Proc.devRef .tc main_arg2)).trans (w2_main_arg2 m ρ c))

theorem w4_main_arg13 : W4 m ρ c (Proc.devRef .tc main_arg13) = arg m c main_arg13 :=
  (W4_of_ne m ρ c main_arg13 (by decide)).trans (((by show StableHlo.after hostOps1 (W2 m ρ c) (Proc.devRef .tc main_arg13) = W2 m ρ c (Proc.devRef .tc main_arg13); dsimp only [hostOps1]; after_results_simp <;> rfl) :
    W3 m ρ c (Proc.devRef .tc main_arg13) = W2 m ρ c (Proc.devRef .tc main_arg13)).trans (w2_main_arg13 m ρ c))

theorem w4_main_arg14 : W4 m ρ c (Proc.devRef .tc main_arg14) = arg m c main_arg14 :=
  (W4_of_ne m ρ c main_arg14 (by decide)).trans (((by show StableHlo.after hostOps1 (W2 m ρ c) (Proc.devRef .tc main_arg14) = W2 m ρ c (Proc.devRef .tc main_arg14); dsimp only [hostOps1]; after_results_simp <;> rfl) :
    W3 m ρ c (Proc.devRef .tc main_arg14) = W2 m ρ c (Proc.devRef .tc main_arg14)).trans (w2_main_arg14 m ρ c))

theorem w4_main_arg15 : W4 m ρ c (Proc.devRef .tc main_arg15) = arg m c main_arg15 :=
  (W4_of_ne m ρ c main_arg15 (by decide)).trans (((by show StableHlo.after hostOps1 (W2 m ρ c) (Proc.devRef .tc main_arg15) = W2 m ρ c (Proc.devRef .tc main_arg15); dsimp only [hostOps1]; after_results_simp <;> rfl) :
    W3 m ρ c (Proc.devRef .tc main_arg15) = W2 m ρ c (Proc.devRef .tc main_arg15)).trans (w2_main_arg15 m ρ c))

theorem w4_main_arg16 : W4 m ρ c (Proc.devRef .tc main_arg16) = arg m c main_arg16 :=
  (W4_of_ne m ρ c main_arg16 (by decide)).trans (((by show StableHlo.after hostOps1 (W2 m ρ c) (Proc.devRef .tc main_arg16) = W2 m ρ c (Proc.devRef .tc main_arg16); dsimp only [hostOps1]; after_results_simp <;> rfl) :
    W3 m ρ c (Proc.devRef .tc main_arg16) = W2 m ρ c (Proc.devRef .tc main_arg16)).trans (w2_main_arg16 m ρ c))

theorem w4_main_arg17 : W4 m ρ c (Proc.devRef .tc main_arg17) = arg m c main_arg17 :=
  (W4_of_ne m ρ c main_arg17 (by decide)).trans (((by show StableHlo.after hostOps1 (W2 m ρ c) (Proc.devRef .tc main_arg17) = W2 m ρ c (Proc.devRef .tc main_arg17); dsimp only [hostOps1]; after_results_simp <;> rfl) :
    W3 m ρ c (Proc.devRef .tc main_arg17) = W2 m ρ c (Proc.devRef .tc main_arg17)).trans (w2_main_arg17 m ρ c))

theorem w4_main_arg18 : W4 m ρ c (Proc.devRef .tc main_arg18) = arg m c main_arg18 :=
  (W4_of_ne m ρ c main_arg18 (by decide)).trans (((by show StableHlo.after hostOps1 (W2 m ρ c) (Proc.devRef .tc main_arg18) = W2 m ρ c (Proc.devRef .tc main_arg18); dsimp only [hostOps1]; after_results_simp <;> rfl) :
    W3 m ρ c (Proc.devRef .tc main_arg18) = W2 m ρ c (Proc.devRef .tc main_arg18)).trans (w2_main_arg18 m ρ c))

theorem w6_main_arg2 : W6 m ρ c (Proc.devRef .tc main_arg2) = arg m c main_arg2 :=
  (W6_of_ne m ρ c main_arg2 (by decide)).trans (((by show StableHlo.after hostOps2 (W4 m ρ c) (Proc.devRef .tc main_arg2) = W4 m ρ c (Proc.devRef .tc main_arg2); dsimp only [hostOps2]; after_results_simp <;> rfl) :
    W5 m ρ c (Proc.devRef .tc main_arg2) = W4 m ρ c (Proc.devRef .tc main_arg2)).trans (w4_main_arg2 m ρ c))

theorem w6_main_arg18 : W6 m ρ c (Proc.devRef .tc main_arg18) = arg m c main_arg18 :=
  (W6_of_ne m ρ c main_arg18 (by decide)).trans (((by show StableHlo.after hostOps2 (W4 m ρ c) (Proc.devRef .tc main_arg18) = W4 m ρ c (Proc.devRef .tc main_arg18); dsimp only [hostOps2]; after_results_simp <;> rfl) :
    W5 m ρ c (Proc.devRef .tc main_arg18) = W4 m ρ c (Proc.devRef .tc main_arg18)).trans (w4_main_arg18 m ρ c))

/-! ## Region 0: its entry contents and its result -/

theorem v1_main_arg0 : V1 m ρ c main_arg0 = arg m c main_arg0 := by
  show StableHlo.after hostOps0 (W0 m ρ c) (Proc.devRef .tc main_arg0) = _
  dsimp only [hostOps0]; after_results_simp <;> rfl

theorem v1_main_arg3 : V1 m ρ c main_arg3 = arg m c main_arg3 := by
  show StableHlo.after hostOps0 (W0 m ρ c) (Proc.devRef .tc main_arg3) = _
  dsimp only [hostOps0]; after_results_simp <;> rfl

theorem v1_main_v13 : V1 m ρ c main_v13 = Cert.ReferenceIdeal.Read.val_main_v13 (F := Ideal) (arg m c main_arg0) (arg m c main_arg1) := by
  show StableHlo.after hostOps0 (W0 m ρ c) (Proc.devRef .tc main_v13) = _
  dsimp only [hostOps0]; after_results_simp <;> rfl

theorem v1_main_v14 : V1 m ρ c main_v14 = shapeCast S1x128 (arg m c main_arg4) shapeCasts_S128_S1x128 := by
  show StableHlo.after hostOps0 (W0 m ρ c) (Proc.devRef .tc main_v14) = _
  dsimp only [hostOps0]; after_results_simp
  rfl

theorem v1_main_v15 : V1 m ρ c main_v15 = shapeCast S1x128 (arg m c main_arg5) shapeCasts_S128_S1x128 := by
  show StableHlo.after hostOps0 (W0 m ρ c) (Proc.devRef .tc main_v15) = _
  dsimp only [hostOps0]; after_results_simp
  rfl

theorem v1_main_v16 : V1 m ρ c main_v16 = shapeCast S1x128 (arg m c main_arg6) shapeCasts_S128_S1x128 := by
  show StableHlo.after hostOps0 (W0 m ρ c) (Proc.devRef .tc main_v16) = _
  dsimp only [hostOps0]; after_results_simp
  rfl

theorem v1_main_v17 : V1 m ρ c main_v17 = shapeCast S1x128 (arg m c main_arg7) shapeCasts_S128_S1x128 := by
  show StableHlo.after hostOps0 (W0 m ρ c) (Proc.devRef .tc main_v17) = _
  dsimp only [hostOps0]; after_results_simp
  rfl

/-- Layer 1's result array holds the reference's first layer. -/
theorem h1 (hv1 : ∀ q : Fin 128, 0 < DenseSpec.vecFn (arg m c main_arg7) q + Ideal.ofBits .f32 0x3727C5AC#32) :
    W2 m ρ c (Proc.devRef .tc main_v18) = Cert.ReferenceIdeal.Read.val_main_v29 (F := Ideal) (arg m c main_arg0) (arg m c main_arg1) (arg m c main_arg3) (arg m c main_arg4) (arg m c main_arg5) (arg m c main_arg6) (arg m c main_arg7) := by
  refine (W2_arr m ρ c 7).trans ((Blocks0.array_eq (V1 m ρ) c).trans ?_)
  refine (layer0_congr (v1_main_arg0 m ρ c) (v1_main_v13 m ρ c) (v1_main_arg3 m ρ c) (v1_main_v14 m ρ c) (v1_main_v15 m ρ c)
    (v1_main_v16 m ρ c) (v1_main_v17 m ρ c)).trans ?_
  exact layer1_bridge _ _ _ _ _ _ _ hv1

/-! ## Region 1 -/

theorem v3_main_v18 : V3 m ρ c main_v18 = W2 m ρ c (Proc.devRef .tc main_v18) := by
  show StableHlo.after hostOps1 (W2 m ρ c) (Proc.devRef .tc main_v18) = _
  dsimp only [hostOps1]; after_results_simp <;> rfl

theorem v3_main_arg8 : V3 m ρ c main_arg8 = arg m c main_arg8 :=
  ((by show StableHlo.after hostOps1 (W2 m ρ c) (Proc.devRef .tc main_arg8) = W2 m ρ c (Proc.devRef .tc main_arg8); dsimp only [hostOps1]; after_results_simp <;> rfl) : W3 m ρ c (Proc.devRef .tc main_arg8) = W2 m ρ c (Proc.devRef .tc main_arg8)).trans
    (w2_main_arg8 m ρ c)

/-- The neighbour sums of layer 1's result, as region 1 finds them. -/
theorem v3_main_v30 (h18 : W2 m ρ c (Proc.devRef .tc main_v18) = Cert.ReferenceIdeal.Read.val_main_v29 (F := Ideal) (arg m c main_arg0) (arg m c main_arg1) (arg m c main_arg3) (arg m c main_arg4) (arg m c main_arg5) (arg m c main_arg6) (arg m c main_arg7)) :
    V3 m ρ c main_v30 = Cert.ReferenceIdeal.Read.val_main_v39 (F := Ideal) (arg m c main_arg0) (arg m c main_arg1) (arg m c main_arg3) (arg m c main_arg4) (arg m c main_arg5) (arg m c main_arg6) (arg m c main_arg7) := by
  show StableHlo.after hostOps1 (W2 m ρ c) (Proc.devRef .tc main_v30) = _
  dsimp only [hostOps1]; after_results_simp
  rw [h18, w2_main_v1 m ρ c, w2_main_v3 m ρ c]
  rfl

theorem v3_main_v31 : V3 m ρ c main_v31 = shapeCast S1x128 (arg m c main_arg9) shapeCasts_S128_S1x128 := by
  show StableHlo.after hostOps1 (W2 m ρ c) (Proc.devRef .tc main_v31) = _
  dsimp only [hostOps1]; after_results_simp
  rw [w2_main_arg9 m ρ c]
  rfl

theorem v3_main_v32 : V3 m ρ c main_v32 = shapeCast S1x128 (arg m c main_arg10) shapeCasts_S128_S1x128 := by
  show StableHlo.after hostOps1 (W2 m ρ c) (Proc.devRef .tc main_v32) = _
  dsimp only [hostOps1]; after_results_simp
  rw [w2_main_arg10 m ρ c]
  rfl

theorem v3_main_v33 : V3 m ρ c main_v33 = shapeCast S1x128 (arg m c main_arg11) shapeCasts_S128_S1x128 := by
  show StableHlo.after hostOps1 (W2 m ρ c) (Proc.devRef .tc main_v33) = _
  dsimp only [hostOps1]; after_results_simp
  rw [w2_main_arg11 m ρ c]
  rfl

theorem v3_main_v34 : V3 m ρ c main_v34 = shapeCast S1x128 (arg m c main_arg12) shapeCasts_S128_S1x128 := by
  show StableHlo.after hostOps1 (W2 m ρ c) (Proc.devRef .tc main_v34) = _
  dsimp only [hostOps1]; after_results_simp
  rw [w2_main_arg12 m ρ c]
  rfl

/-- Layer 2's result array holds the reference's second layer. -/
theorem h2 (hv1 : ∀ q : Fin 128, 0 < DenseSpec.vecFn (arg m c main_arg7) q + Ideal.ofBits .f32 0x3727C5AC#32)
    (hv2 : ∀ q : Fin 128, 0 < DenseSpec.vecFn (arg m c main_arg12) q + Ideal.ofBits .f32 0x3727C5AC#32) :
    W4 m ρ c (Proc.devRef .tc main_v35) = Cert.ReferenceIdeal.Read.val_main_v55 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) := by
  have e0 := (v3_main_v18 m ρ c).trans (h1 m ρ c hv1)
  have e1 := v3_main_v30 m ρ c (h1 m ρ c hv1)
  refine (W4_arr m ρ c 7).trans ((Blocks1.array_eq (V3 m ρ) c).trans ?_)
  refine (layer1_congr e0 e1 (v3_main_arg8 m ρ c) (v3_main_v31 m ρ c) (v3_main_v32 m ρ c) (v3_main_v33 m ρ c)
    (v3_main_v34 m ρ c)).trans ?_
  exact layer2_bridge _ _ _ _ _ _ _ _ _ _ _ _ hv2

/-! ## Region 2 -/

theorem v5_main_v35 : V5 m ρ c main_v35 = W4 m ρ c (Proc.devRef .tc main_v35) := by
  show StableHlo.after hostOps2 (W4 m ρ c) (Proc.devRef .tc main_v35) = _
  dsimp only [hostOps2]; after_results_simp <;> rfl

theorem v5_main_arg13 : V5 m ρ c main_arg13 = arg m c main_arg13 :=
  ((by show StableHlo.after hostOps2 (W4 m ρ c) (Proc.devRef .tc main_arg13) = W4 m ρ c (Proc.devRef .tc main_arg13); dsimp only [hostOps2]; after_results_simp <;> rfl) : W5 m ρ c (Proc.devRef .tc main_arg13) = W4 m ρ c (Proc.devRef .tc main_arg13)).trans
    (w4_main_arg13 m ρ c)

/-- The neighbour sums of layer 2's result, as region 2 finds them. -/
theorem v5_main_v47 (h35 : W4 m ρ c (Proc.devRef .tc main_v35) = Cert.ReferenceIdeal.Read.val_main_v55 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12)) :
    V5 m ρ c main_v47 = Cert.ReferenceIdeal.Read.val_main_v65 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) := by
  show StableHlo.after hostOps2 (W4 m ρ c) (Proc.devRef .tc main_v47) = _
  dsimp only [hostOps2]; after_results_simp
  rw [h35, w4_main_v1 m ρ c, w4_main_v3 m ρ c]
  rfl

theorem v5_main_v48 : V5 m ρ c main_v48 = shapeCast S1x128 (arg m c main_arg14) shapeCasts_S128_S1x128 := by
  show StableHlo.after hostOps2 (W4 m ρ c) (Proc.devRef .tc main_v48) = _
  dsimp only [hostOps2]; after_results_simp
  rw [w4_main_arg14 m ρ c]
  rfl

theorem v5_main_v49 : V5 m ρ c main_v49 = shapeCast S1x128 (arg m c main_arg15) shapeCasts_S128_S1x128 := by
  show StableHlo.after hostOps2 (W4 m ρ c) (Proc.devRef .tc main_v49) = _
  dsimp only [hostOps2]; after_results_simp
  rw [w4_main_arg15 m ρ c]
  rfl

theorem v5_main_v50 : V5 m ρ c main_v50 = shapeCast S1x128 (arg m c main_arg16) shapeCasts_S128_S1x128 := by
  show StableHlo.after hostOps2 (W4 m ρ c) (Proc.devRef .tc main_v50) = _
  dsimp only [hostOps2]; after_results_simp
  rw [w4_main_arg16 m ρ c]
  rfl

theorem v5_main_v51 : V5 m ρ c main_v51 = shapeCast S1x128 (arg m c main_arg17) shapeCasts_S128_S1x128 := by
  show StableHlo.after hostOps2 (W4 m ρ c) (Proc.devRef .tc main_v51) = _
  dsimp only [hostOps2]; after_results_simp
  rw [w4_main_arg17 m ρ c]
  rfl

/-- Layer 3's result array holds the reference's third layer. -/
theorem h3 (hv1 : ∀ q : Fin 128, 0 < DenseSpec.vecFn (arg m c main_arg7) q + Ideal.ofBits .f32 0x3727C5AC#32)
    (hv2 : ∀ q : Fin 128, 0 < DenseSpec.vecFn (arg m c main_arg12) q + Ideal.ofBits .f32 0x3727C5AC#32)
    (hv3 : ∀ q : Fin 128, 0 < DenseSpec.vecFn (arg m c main_arg17) q + Ideal.ofBits .f32 0x3727C5AC#32) :
    W6 m ρ c (Proc.devRef .tc main_v52) = Cert.ReferenceIdeal.Read.val_main_v81 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) := by
  have e0 := (v5_main_v35 m ρ c).trans (h2 m ρ c hv1 hv2)
  have e1 := v5_main_v47 m ρ c (h2 m ρ c hv1 hv2)
  refine (W6_arr m ρ c 7).trans ((Blocks2.array_eq (V5 m ρ) c).trans ?_)
  refine (layer2_congr e0 e1 (v5_main_arg13 m ρ c) (v5_main_v48 m ρ c) (v5_main_v49 m ρ c) (v5_main_v50 m ρ c)
    (v5_main_v51 m ρ c)).trans ?_
  exact layer3_bridge _ _ _ _ _ _ _ _ _ _ _ _ _ _ _ _ _ hv3

/-! ## The pooling tail -/

/-- The program's result buffer holds the reference's result of the same arguments. -/
theorem result_eq (hv1 : ∀ q : Fin 128, 0 < DenseSpec.vecFn (arg m c main_arg7) q + Ideal.ofBits .f32 0x3727C5AC#32)
    (hv2 : ∀ q : Fin 128, 0 < DenseSpec.vecFn (arg m c main_arg12) q + Ideal.ofBits .f32 0x3727C5AC#32)
    (hv3 : ∀ q : Fin 128, 0 < DenseSpec.vecFn (arg m c main_arg17) q + Ideal.ofBits .f32 0x3727C5AC#32) :
    W7 m ρ c (Proc.devRef .tc main_v70) = Cert.ReferenceIdeal.Read.val_main_v99 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) := by
  show StableHlo.after hostOps3 (W6 m ρ c) (Proc.devRef .tc main_v70) = _
  dsimp only [hostOps3]; after_results_simp
  rw [h3 m ρ c hv1 hv2 hv3, w6_main_arg2 m ρ c, w6_main_arg18 m ρ c]
  rfl

end Cert.KernelIdeal.KValue

end
-- ==== Proof.PreDomain.lean ====
/-
  What the precondition says about the three variance vectors.

  The precondition is a conjunction of twenty `all`-reductions; the last three say, for the variance vector `v` of each
  of the three normalisations, that `v + ε > 0` in every channel (`ε` the float nearest `10⁻⁵`, the same word the two
  programs add under the root). An `and` of one-bit words is `1` only if both are, an `all` that is `1` had a `1` at
  every index, and on the extended reals a comparison word is `1` exactly when the comparison holds.
-/
import proofs.«147843_j40407052320950_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.PreDomain

open Idealize.ShloMosaic Idealize.ShloMosaic.ValueIdx Cert.Pre_finite_inputs

variable [Facts]
open Facts

instance : Subsingleton S_.Idx := ⟨fun a b => funext fun d => d.elim0⟩

/-- One `all (v + ε > 0)` that came out `1` gives the inequality in every channel. -/
theorem pos_of_all (v : FVec Ideal S128 .f32)
    (e : (Host.reduce IntOp.andi
            (cmpf .ogt (addf v (broadcastInDim S128 ![] bcast_S_S128 (constant (F := Ideal) S_ .f32 0x3727C5AC#32)))
              (broadcastInDim S128 ![] bcast_S_S128 (constant (F := Ideal) S_ .f32 0x00000000#32)))
            (constantI S_ 1 1#1) reducesTo_S128_S_d0 h_S_) ix0 = 1#1) (q : Fin 128) :
    0 < v (ix1 q) + Ideal.ofBits .f32 0x3727C5AC#32 := by
  have h1 := Host.reduce_andi_all _ _ reducesTo_S128_S_d0 h_S_ ix0 e (ix1 q)
  have hz : (broadcastInDim S128 ![] bcast_S_S128 (constant (F := Ideal) S_ .f32 0x00000000#32)) (ix1 q) = 0 :=
    (broadcastInDim_apply _ bcast_S_S128 _ (ix1 q) ix0 (fun a => a.elim0)).trans Ideal.ofBits_zero_f32
  have he : (broadcastInDim S128 ![] bcast_S_S128 (constant (F := Ideal) S_ .f32 0x3727C5AC#32)) (ix1 q)
      = Ideal.ofBits .f32 0x3727C5AC#32 :=
    broadcastInDim_apply _ bcast_S_S128 _ (ix1 q) ix0 (fun a => a.elim0)
  have h2 : Ideal.cmp .ogt
      (v (ix1 q) + (broadcastInDim S128 ![] bcast_S_S128 (constant (F := Ideal) S_ .f32 0x3727C5AC#32)) (ix1 q))
      ((broadcastInDim S128 ![] bcast_S_S128 (constant (F := Ideal) S_ .f32 0x00000000#32)) (ix1 q)) = 1#1 := h1
  rw [hz, he] at h2
  simp only [Ideal.cmp] at h2
  by_contra hn
  rw [decide_eq_false hn] at h2
  exact absurd h2 (by decide)

/-- The precondition all ones gives `v + ε > 0` in every channel for each of the three variance vectors. -/
theorem domain_of_fn (a0 : FVec Ideal S100000x4 .f32) (a1 : IVec S2x1600000 32) (a2 : IVec S100000 32) (a3 : FVec Ideal S4x128 .f32) (a4 : FVec Ideal S128 .f32) (a5 : FVec Ideal S128 .f32) (a6 : FVec Ideal S128 .f32) (a7 : FVec Ideal S128 .f32) (a8 : FVec Ideal S128x128 .f32) (a9 : FVec Ideal S128 .f32) (a10 : FVec Ideal S128 .f32) (a11 : FVec Ideal S128 .f32) (a12 : FVec Ideal S128 .f32) (a13 : FVec Ideal S128x128 .f32) (a14 : FVec Ideal S128 .f32) (a15 : FVec Ideal S128 .f32) (a16 : FVec Ideal S128 .f32) (a17 : FVec Ideal S128 .f32) (a18 : FVec Ideal S128x1 .f32)
    (h : fn (F := Ideal) a0 a1 a2 a3 a4 a5 a6 a7 a8 a9 a10 a11 a12 a13 a14 a15 a16 a17 a18 = fun _ => 1#1) :
    (∀ q : Fin 128, 0 < a7 (ix1 q) + Ideal.ofBits .f32 0x3727C5AC#32)
    ∧ (∀ q : Fin 128, 0 < a12 (ix1 q) + Ideal.ofBits .f32 0x3727C5AC#32)
    ∧ (∀ q : Fin 128, 0 < a17 (ix1 q) + Ideal.ofBits .f32 0x3727C5AC#32) := by
  have e := congrFun h ix0
  unfold fn fn_part1 fn_part2 fn_part3 fn_part4 fn_part5 fn_part6 at e
  dsimp only at e
  obtain ⟨e12, e3⟩ := IntOp.andi_eq_one.mp e
  obtain ⟨e1', e2⟩ := IntOp.andi_eq_one.mp e12
  obtain ⟨-, e1⟩ := IntOp.andi_eq_one.mp e1'
  exact ⟨pos_of_all a7 e1, pos_of_all a12 e2, pos_of_all a17 e3⟩

end Cert.PreDomain

end
-- ==== Proof.lean ====
/-
  The certificate's five claims.

  The three programs run, terminate without a fault and leave their arguments as launched: the two kernel programs by
  the generated frames, the reference by its generated run. No operation was rewritten when the kernel was idealized, so
  that claim is trivial. The value claim: where the precondition holds, each variance vector plus `ε` is positive in
  every channel, so the kernel's scale `weight · rsqrt (variance + ε)` is the reference's `weight / sqrt (variance + ε)`
  on the extended reals; each layer kernel's result array is then the reference's layer of the same inputs, the host
  operations between the layers are the reference's own, and the two result buffers hold one function of the arguments.
-/
import proofs.«147843_j40407052320950_2_alg».proof.Defs
import proofs.«147843_j40407052320950_2_alg».proof.Proof.Gen.Kernel
import proofs.«147843_j40407052320950_2_alg».proof.Proof.Gen.Kernel.Skeleton
import proofs.«147843_j40407052320950_2_alg».proof.Proof.Gen.Kernel.Launch
import proofs.«147843_j40407052320950_2_alg».proof.Proof.Gen.Kernel.Points
import proofs.«147843_j40407052320950_2_alg».proof.Proof.Gen.Kernel.Frame
import proofs.«147843_j40407052320950_2_alg».proof.Proof.Gen.KernelIdeal
import proofs.«147843_j40407052320950_2_alg».proof.Proof.Gen.KernelIdeal.Skeleton
import proofs.«147843_j40407052320950_2_alg».proof.Proof.Gen.KernelIdeal.Launch
import proofs.«147843_j40407052320950_2_alg».proof.Proof.Gen.KernelIdeal.Points
import proofs.«147843_j40407052320950_2_alg».proof.Proof.Gen.KernelIdeal.Frame
import proofs.«147843_j40407052320950_2_alg».proof.Proof.Gen.ReferenceIdeal
import proofs.«147843_j40407052320950_2_alg».proof.Proof.Gen.Pre_finite_inputs
import proofs.«147843_j40407052320950_2_alg».proof.Proof.Gen.ReferenceIdeal.Run
import proofs.«147843_j40407052320950_2_alg».proof.Proof.Gen.ReferenceIdeal.Read
import proofs.«147843_j40407052320950_2_alg».proof.Proof.KernelValue
import proofs.«147843_j40407052320950_2_alg».proof.Proof.PreDomain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the kernel program's arguments. -/
theorem algebraic : Cert.algebraic_KernelIdeal_ReferenceIdeal := by
  intro m ρ m' ρ' hpre hagree
  refine ⟨fun c => Cert.ReferenceIdeal.Read.val_main_v99 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18)), ?_, ?_⟩
  · refine (θ_run Cert.KernelIdeal.defs _ _).mono (fun r h c => ⟨(h c).1.trans ?_, (h c).2⟩)
      (Cert.KernelIdeal.Run.run_result (F := Ideal) m ρ)
    obtain ⟨hv1, hv2, hv3⟩ := Cert.PreDomain.domain_of_fn _ _ _ _ _ _ _ _ _ _ _ _ _ _ _ _ _ _ _ (hpre c)
    exact Cert.KernelIdeal.KValue.result_eq m ρ c hv1 hv2 hv3
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18⟩ := hagree c
    rw [Cert.ReferenceIdeal.Read.val_main_v99_eq m' c, g0, g1, g2, g3, g4, g5, g6, g7, g8, g9, g10, g11, g12, g13, g14, g15, g16, g17, g18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
